-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024 : Shape := ⟨2, ![1, 1024]⟩
abbrev S1x512x1024 : Shape := ⟨3, ![1, 512, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 20
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4x2048x1024, .bf16⟩
  | .hbm, ⟨18, _⟩ => ⟨S4x2048x1024, .bf16⟩
  | .hbm, ⟨19, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x256x1024, .f32⟩
  | .local _ .vmem, ⟨11, _⟩ => ⟨S1x256x1024, .f32⟩
  | .local _ .vmem, ⟨12, _⟩ => ⟨S1024x1024, .bf16⟩
  | .local _ .vmem, ⟨13, _⟩ => ⟨S1x1024, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1x1024, .f32⟩
  | .local _ .vmem, ⟨19, _⟩ => ⟨S1x1024, .f32⟩
  | .local _ .vmem, ⟨20, _⟩ => ⟨S1x256x1024, .f32⟩
  | .local _ .vmem, ⟨21, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  bitsLt_bf16_f32 : FTy.bits .bf16 < FTy.bits .f32
  shapeCasts_S1024_S1x1024 : S1024.ShapeCasts S1x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  reduces_S256x2048_S256 : S256x2048.Reduces [1] S256
  shapeCasts_S256_S256x1 : S256.ShapeCasts S256x1
  broadcasts_S256x1_S256x2048 : S256x1.Broadcasts S256x2048
  broadcasts_S256x1_S256x1024 : S256x1.Broadcasts S256x1024
  reduces_S256x1024_S256 : S256x1024.Reduces [1] S256
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S1024x1024_S256x1024_1_0_0_1_n_n_wf : DotDims.WF S256x1024 S1024x1024 S256x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x1024.size a ≤ S4x2048x1024.size a
  hwx1_3 : ∀ i : grid1.Coords, EltTy.bits .bf16 = 32 ∨ (Rect.block (s := S4x2048x1024) S1x2048x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1024.size a ≤ S4x2048x1024.size a
  hwx1_4 : ∀ i : grid1.Coords, EltTy.bits .bf16 = 32 ∨ (Rect.block (s := S4x2048x1024) S1x2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x256x1024.size a ≤ S4x2048x1024.size a
  hwx1_7 : ∀ i : grid1.Coords, EltTy.bits .f32 = 32 ∨ (Rect.block (s := S4x2048x1024) S1x256x1024.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8_0) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_1) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8_0) S1x2048x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8_1) S1x2048x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x256x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S4x2048x2048 : Shape := ⟨3, ![4, 2048, 2048]⟩
abbrev S4x2048 : Shape := ⟨2, ![4, 2048]⟩
abbrev S4x2048x1 : Shape := ⟨3, ![4, 2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S1x1x1024, .f32⟩
  | .hbm, ⟨21, _⟩ => ⟨S4x2048x1024, .f32⟩
  | .hbm, ⟨22, _⟩ => ⟨S4x2048x1024, .f32⟩
  | .hbm, ⟨23, _⟩ => ⟨S4x2048x2048, .f32⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048, .f32⟩
  | .hbm, ⟨44, _⟩ => ⟨S4x2048x1, .f32⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x1024, .f32⟩
  | .hbm, ⟨49, _⟩ => ⟨S4x2048x1024, .f32⟩
  | .hbm, ⟨50, _⟩ => ⟨S4x2048x1024, .f32⟩
  | .hbm, ⟨51, _⟩ => ⟨S_, .f32⟩
  | .hbm, ⟨52, _⟩ => ⟨S4x2048, .f32⟩
  | .hbm, ⟨53, _⟩ => ⟨S4x2048x1, .f32⟩
  | .hbm, ⟨54, _⟩ => ⟨S_, .f32⟩
  | .hbm, ⟨55, _⟩ => ⟨S4x2048x1, .f32⟩
  | .hbm, ⟨56, _⟩ => ⟨S4x2048x1, .f32⟩
  | .hbm, ⟨57, _⟩ => ⟨S4x2048x1024, .f32⟩
  | .hbm, ⟨58, _⟩ => ⟨S4x2048x1024, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1, .f32⟩
  | .hbm, ⟨63, _⟩ => ⟨S4x2048x1024, .f32⟩
  | .hbm, ⟨64, _⟩ => ⟨S4x2048x1024, .f32⟩
  | .hbm, ⟨65, _⟩ => ⟨S1x1x1024, .f32⟩
  | .hbm, ⟨66, _⟩ => ⟨S4x2048x1024, .f32⟩
  | .hbm, ⟨67, _⟩ => ⟨S4x2048x1024, .f32⟩
  | .hbm, ⟨68, _⟩ => ⟨S1x1x1024, .f32⟩
  | .hbm, ⟨69, _⟩ => ⟨S4x2048x1024, .f32⟩
  | .hbm, ⟨70, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_3 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_7 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  reducesTo_S4x2048x1024_S4x2048_d2 : S4x2048x1024.ReducesTo [2] S4x2048
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The kernel program's run with its result array NAMED: every weakly fair execution of @main (three host
  conversions, five reshapes, then the two pallas_calls) terminates without a fault, leaves the nine argument arrays as
  launched, and leaves the result array at what the second pallas_call's write-backs leave of it — the fold of the
  segment boundaries' contents `W3` read at the result buffer. The run is the frame run of the segments; only the
  final state's reading is longer by one buffer.
-/
import proofs.«142548_j72980084294339_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run: the arguments as launched, the result buffer at the last boundary's contents. -/
theorem run_out : θ_run defs (onTc (τ := τ) (main (F := F))) ⟨m, fun _ => 0, ρ⟩ (fun r => ∀ c : Dev nD,
      r.2.mem ((c.tc : Thread nD τ).loc main_v9) = W3 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v9 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.KernelIdeal.RunOut

end
-- ==== Proof.Spec.lean ====
/-
  Single-head scaled-dot-product self-attention with a residual and a LayerNorm, row by row, on the extended reals:
  the two arrangements that are compared (the scale folded into the query and the softmax normalised after the
  value product, against the scores divided by sqrt(d) and the softmax normalised before the value product), each as ONE
  function of coordinates. No program is imported here.
-/
import Idealize.ShloMosaic.PureOps.Ideal

noncomputable section

namespace Cert.Attn

open Idealize.ShloMosaic

/-- The four float literals the two programs share or differ by, as the extended reals their patterns denote:
    1/32 (the scale folded into the query), 1024 (the model width), 1e-5 as f32 rounds it, and -inf. -/
def invScale : EReal := Ideal.ofBits .f32 0x3D000000#32
def dModel : EReal := Ideal.ofBits .f32 0x44800000#32
def eps : EReal := Ideal.ofBits .f32 0x3727C5AC#32
def negInf : EReal := Ideal.ofBits .f32 0xFF800000#32

/-- One row times a weight matrix plus a bias: entry e of x·W + b. -/
def proj (x : Fin 1024 → EReal) (W : Fin 1024 → Fin 1024 → EReal) (b : Fin 1024 → EReal) (e : Fin 1024) : EReal :=
  (∑ d : Fin 1024, x d * W d e) + b e

/-- The maximum of a row of 2048 scores, folded from -inf. -/
def rowMax (s : Fin 2048 → EReal) : EReal := (Finset.univ : Finset (Fin 2048)).fold max negInf s

/-- Scores with the scale 1/32 folded into the query row. -/
def scoreK (q : Fin 1024 → EReal) (K : Fin 2048 → Fin 1024 → EReal) (k : Fin 2048) : EReal :=
  ∑ d : Fin 1024, (q d * invScale) * K k d

/-- Attention of one query row with the normalisation AFTER the value product:
    (Σ_k exp(s_k - max s) · V_k) / Σ_k exp(s_k - max s). -/
def attnK (q : Fin 1024 → EReal) (K V : Fin 2048 → Fin 1024 → EReal) (e : Fin 1024) : EReal :=
  Ideal.div (∑ k : Fin 2048, Ideal.exp (scoreK q K k - rowMax (scoreK q K)) * V k e)
    (∑ k : Fin 2048, Ideal.exp (scoreK q K k - rowMax (scoreK q K)))

/-- Scores divided by sqrt(1024). -/
def scoreR (q : Fin 1024 → EReal) (K : Fin 2048 → Fin 1024 → EReal) (k : Fin 2048) : EReal :=
  Ideal.div (∑ d : Fin 1024, q d * K k d) (Ideal.sqrt dModel)

/-- Attention of one query row with the softmax normalised BEFORE the value product (jax.nn.softmax:
    the row maximum joined with -inf once more): Σ_k (exp(s_k - m) / Σ_k' exp(s_k' - m)) · V_k. -/
def attnR (q : Fin 1024 → EReal) (K V : Fin 2048 → Fin 1024 → EReal) (e : Fin 1024) : EReal :=
  ∑ k : Fin 2048, Ideal.div (Ideal.exp (scoreR q K k - max negInf (rowMax (scoreR q K))))
    (∑ k' : Fin 2048, Ideal.exp (scoreR q K k' - max negInf (rowMax (scoreR q K)))) * V k e

/-- The mean of a row of 1024 entries (its sum divided by 1024). -/
def rowMean (h : Fin 1024 → EReal) : EReal := Ideal.div (∑ d : Fin 1024, h d) dModel

/-- LayerNorm of one row: (h - mean) · rsqrt(var + eps) · gamma + beta, var the mean of the squared deviations. -/
def layerNorm (h g b : Fin 1024 → EReal) (e : Fin 1024) : EReal :=
  (h e - rowMean h) * Ideal.rsqrt (rowMean (fun d => (h d - rowMean h) * (h d - rowMean h)) + eps) * g e + b e

/-- The whole layer at (batch bi, position s, feature e), in the arrangement with the scale folded into the query. -/
def outK (x : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (g be : Fin 1024 → EReal) (bi : Fin 4) (s : Fin 2048) (e : Fin 1024) : EReal :=
  layerNorm (fun d => x bi s d + attnK (proj (x bi s) Wq bq) (fun k => proj (x bi k) Wk bk) (fun k => proj (x bi k) Wv bv) d) g be e

/-- The whole layer in the textbook arrangement. -/
def outR (x : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (g be : Fin 1024 → EReal) (bi : Fin 4) (s : Fin 2048) (e : Fin 1024) : EReal :=
  layerNorm (fun d => x bi s d + attnR (proj (x bi s) Wq bq) (fun k => proj (x bi k) Wk bk) (fun k => proj (x bi k) Wv bv) d) g be e

end Cert.Attn

end
-- ==== Proof.KernelOut.lean ====
/-
  The result array of the kernel program as ONE function of the nine argument arrays: at (b, s, e) the attention layer
  (scale folded into the query, softmax normalised after the value product) of the arguments read at coordinates.
-/
import proofs.«142548_j72980084294339_2_alg».proof.KernelIdeal
import proofs.«142548_j72980084294339_2_alg».proof.Proof.Spec
import Idealize.ShloMosaic.Lib.ValueIdx

noncomputable section

namespace Cert.KernelIdeal.Out

open Cert.KernelIdeal Idealize.ShloMosaic Idealize.ShloMosaic.TcCoe Idealize.SL.Sem Idealize.ShloMosaic.ValueIdx

/-- A [4, 2048, 1024] array, a [1024, 1024] matrix and a [1024] vector read at coordinates. -/
def at3 (A : S4x2048x1024.Idx → EReal) : Fin 4 → Fin 2048 → Fin 1024 → EReal := fun b s d => A (ix3 b s d)
def at2 (A : S1024x1024.Idx → EReal) : Fin 1024 → Fin 1024 → EReal := fun d e => A (ix2 d e)
def at1 (A : S1024.Idx → EReal) : Fin 1024 → EReal := fun e => A (ix1 e)

/-- The layer of the nine argument arrays (x, Wq, bq, Wk, bk, Wv, bv, gamma, beta), as an array. -/
def layer (a0 : S4x2048x1024.Idx → EReal) (a1 : S1024x1024.Idx → EReal) (a2 : S1024.Idx → EReal) (a3 : S1024x1024.Idx → EReal)
    (a4 : S1024.Idx → EReal) (a5 : S1024x1024.Idx → EReal) (a6 a7 a8 : S1024.Idx → EReal) : S4x2048x1024.Idx → EReal :=
  fun i => Cert.Attn.outK (at3 a0) (at2 a1) (at1 a2) (at2 a3) (at1 a4) (at2 a5) (at1 a6) (at1 a7) (at1 a8) (i 0) (i 1) (i 2)

/-- The result array after the run, on core c, from the launch memory. -/
def result (m : (ℓ : Loc nD τ sig) → Buf (Elt Ideal) ℓ) (c : Dev nD) : Buf (Elt Ideal) ((c.tc : Thread nD τ).loc main_v9) :=
  layer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

end Cert.KernelIdeal.Out

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.LibDenseBlock.lean ====
/-
  A dense layer on the matrix unit, read at an entry.

  A block `A` of `M` rows and `K` columns times a `K × C` matrix `W`, accumulated from the zero word, plus a bias
  held as one row `[1, C]` and spread over the `M` rows, read at `(p, c)`, is

      ∑ₖ A (p, k) · W (k, c) + b (0, c)

  on the extended reals — for every `M`, `K`, `C`, any operand formats, and whatever the shape casts of the
  matrix and of the bias row to their own shapes (which a kernel's loads of whole buffers print). The dimension
  numbers are those of a plain product, given as an equation so that a printed record can be passed with `rfl`.
-/
import proofs.«142548_j72980084294339_2_alg».proof.Proof.LibPlainDot
import Idealize.ShloMosaic.Lib.Pipeline.Value
import Idealize.ShloMosaic.Lib.ValueLayout

noncomputable section

open scoped BigOperators

namespace Cert.Lib.DenseBlock

open Idealize.ShloMosaic Idealize.ShloMosaic.ValueIdx

/-- A block times a matrix from the zero accumulator plus a spread bias row, at an entry. -/
theorem denseBlock_apply {M K C : Nat} {φ₁ φ₂ : FTy} (d : DotDims ⟨2, ![M, K]⟩ ⟨2, ![K, C]⟩ ⟨2, ![M, C]⟩)
    (hd : d = DotDims.plain M K C) (prec : Option ContractPrecision)
    (A : FVec Ideal ⟨2, ![M, K]⟩ φ₁) (W : FVec Ideal ⟨2, ![K, C]⟩ φ₂) (b : FVec Ideal ⟨2, ![1, C]⟩ .f32)
    (hW : (⟨2, ![K, C]⟩ : Shape).ShapeCasts ⟨2, ![K, C]⟩) (hb : (⟨2, ![1, C]⟩ : Shape).ShapeCasts ⟨2, ![1, C]⟩)
    (hbb : (⟨2, ![1, C]⟩ : Shape).Broadcasts ⟨2, ![M, C]⟩) (p : Fin M) (c : Fin C) :
    addf (matmul d prec A (shapeCast ⟨2, ![K, C]⟩ W hW) (constant ⟨2, ![M, C]⟩ .f32 0x00000000#32))
        (broadcastTo ⟨2, ![M, C]⟩ (shapeCast ⟨2, ![1, C]⟩ b hb) hbb) (ix2 p c)
      = (∑ k : Fin K, A (ix2 p k) * W (ix2 k c)) + b (ix2 (0 : Fin 1) c) := by
  subst hd
  rw [addf_apply, shapeCast_self, shapeCast_self, broadcastTo_1b_ab_apply]
  exact congrArg (· + b (ix2 (0 : Fin 1) c)) (Cert.Lib.PlainDot.matmul_plain_zero_apply prec A W p c)

end Cert.Lib.DenseBlock

end
-- ==== Proof.KvBody.lean ====
/-
  The first kernel's body at an entry: both of its stores hold, at row r and feature e of the tile, the
  projection of the row by a weight matrix plus a bias — entry e of x·W + b on the extended reals.
-/
import proofs.«142548_j72980084294339_2_alg».proof.Proof.Gen.KernelIdeal.Frame
import proofs.«142548_j72980084294339_2_alg».proof.Proof.Spec
import proofs.«142548_j72980084294339_2_alg».proof.Proof.LibDenseBlock
import Idealize.ShloMosaic.Lib.Pipeline.Value
import Idealize.ShloMosaic.Lib.ValueLayout
import Idealize.ShloMosaic.Lib.ValueIdx

set_option maxRecDepth 16384

noncomputable section

open scoped BigOperators

namespace Cert.KernelIdeal.Body

open Cert.KernelIdeal Idealize.ShloMosaic Idealize.ShloMosaic.ValueIdx

/-- The offset of a whole rank-3 rectangle is zero on every axis. -/
theorem off3_zero : (![0, 0, 0] : Fin 3 → Nat) = fun _ => 0 := funext fun a => by fin_cases a <;> rfl

/-- The offset of a whole rank-2 rectangle is zero on every axis. -/
theorem off2_zero : (![0, 0] : Fin 2 → Nat) = fun _ => 0 := funext fun a => by fin_cases a <;> rfl

/-- The body's left operand read at (r, d): the tile's row r at d (the unit axis dropped, the narrowing the identity). -/
theorem tileRow_apply (x0 : Vec Ideal S1x512x1024 .f32) (r : Fin 512) (d : Fin 1024) :
    Cert.KernelIdeal.Gen.k0_pay1 (F := Ideal) x0 (ix2 r d) = x0 (ix3 (0 : Fin 1) r d) := by
  unfold Cert.KernelIdeal.Gen.k0_pay1
  exact (truncf_apply (ψ := .bf16) (φ := .f32) _ Cert.KernelIdeal.Gen.bitsLt_bf16_f32 (ix2 r d)).trans
    (shapeCast_1ab_ab_apply x0 _ r d)

/-- The dense layer of the body read at (0, r, e): the row r of the tile times the weight matrix, plus the bias. -/
theorem dense_apply (x0 : Vec Ideal S1x512x1024 .f32) (w : Vec Ideal S1024x1024 .bf16) (b : Vec Ideal S1x1024 .f32)
    (r : Fin 512) (e : Fin 1024) :
    Cert.KernelIdeal.Gen.k0_pay2 (F := Ideal) x0 w b (ix3 (0 : Fin 1) r e)
      = Cert.Attn.proj (fun d => x0 (ix3 (0 : Fin 1) r d)) (fun d c => w (ix2 d c)) (fun c => b (ix2 (0 : Fin 1) c)) e := by
  unfold Cert.KernelIdeal.Gen.k0_pay2
  refine (shapeCast_ab_1ab_apply _ _ (0 : Fin 1) r e).trans ?_
  refine (truncf_apply (ψ := .bf16) (φ := .f32) _ Cert.KernelIdeal.Gen.bitsLt_bf16_f32 (ix2 r e)).trans ?_
  refine (Cert.Lib.DenseBlock.denseBlock_apply (M := 512) (K := 1024) (C := 1024) (φ₁ := .bf16) (φ₂ := .bf16)
    _ rfl none (Cert.KernelIdeal.Gen.k0_pay1 x0) w b _ _ _ r e).trans ?_
  unfold Cert.Attn.proj
  refine congrArg (· + b (ix2 (0 : Fin 1) e)) (Finset.sum_congr rfl fun d _ => ?_)
  exact congrArg (· * w (ix2 d e)) (tileRow_apply x0 r d)

theorem out0_5_apply (x0 : Vec Ideal S1x512x1024 .f32) (x1 : Vec Ideal S1024x1024 .bf16) (x2 : Vec Ideal S1x1024 .f32)
    (x3 : Vec Ideal S1024x1024 .bf16) (x4 : Vec Ideal S1x1024 .f32) (r : Fin 512) (e : Fin 1024) :
    Cert.KernelIdeal.Gen.out0_5 (F := Ideal) x0 x1 x2 x3 x4 (ix3 (0 : Fin 1) r e)
      = Cert.Attn.proj (fun d => x0 (ix3 (0 : Fin 1) r d)) (fun d c => x1 (ix2 d c)) (fun c => x2 (ix2 (0 : Fin 1) c)) e := by
  unfold Cert.KernelIdeal.Gen.out0_5
  rw [View.canon_unit_zero off3_zero]
  simp only [View.ld_unit_zero (S := S1x512x1024) off3_zero, View.ld_unit_zero (S := S1024x1024) off2_zero,
    View.ld_unit_zero (S := S1x1024) off2_zero]
  exact dense_apply x0 x1 x2 r e

theorem out0_6_apply (x0 : Vec Ideal S1x512x1024 .f32) (x1 : Vec Ideal S1024x1024 .bf16) (x2 : Vec Ideal S1x1024 .f32)
    (x3 : Vec Ideal S1024x1024 .bf16) (x4 : Vec Ideal S1x1024 .f32) (r : Fin 512) (e : Fin 1024) :
    Cert.KernelIdeal.Gen.out0_6 (F := Ideal) x0 x1 x2 x3 x4 (ix3 (0 : Fin 1) r e)
      = Cert.Attn.proj (fun d => x0 (ix3 (0 : Fin 1) r d)) (fun d c => x3 (ix2 d c)) (fun c => x4 (ix2 (0 : Fin 1) c)) e := by
  unfold Cert.KernelIdeal.Gen.out0_6
  rw [View.canon_unit_zero off3_zero]
  simp only [View.ld_unit_zero (S := S1x512x1024) off3_zero, View.ld_unit_zero (S := S1024x1024) off2_zero,
    View.ld_unit_zero (S := S1x1024) off2_zero]
  exact dense_apply x0 x3 x4 r e

end Cert.KernelIdeal.Body

end
-- ==== Proof.KvValue.lean ====
/-
  The first pallas_call's two result arrays as whole-array functions of the arrays the call finds: every grid point
  (b, s) writes back rows 512·s … 512·s + 511 of batch b of x·W + bias, and the sixteen blocks tile the array.
-/
import proofs.«142548_j72980084294339_2_alg».proof.Proof.Gen.KernelIdeal.Frame
import proofs.«142548_j72980084294339_2_alg».proof.Proof.Spec
import proofs.«142548_j72980084294339_2_alg».proof.Proof.KvBody
import Idealize.ShloMosaic.Lib.Pipeline.Value
import Idealize.ShloMosaic.Lib.ValueIdx

set_option maxRecDepth 16384

noncomputable section

namespace Cert.KernelIdeal.KvValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- x·W + bias as one array: entry (b, s, e) is row (b, s) of X times column e of W, plus the bias row's entry e. -/
def proj3 (X : S4x2048x1024.Idx → EReal) (W : S1024x1024.Idx → EReal) (b : S1x1024.Idx → EReal) : S4x2048x1024.Idx → EReal :=
  fun i => Cert.Attn.proj (fun d => X (ix3 (i 0) (i 1) d)) (fun d e => W (ix2 d e)) (fun e => b (ix2 (0 : Fin 1) e)) (i 2)

/-- The index maps over the sixteen grid points: the x block and both result blocks are block (t / 4, t % 4, 0); the
    weights and biases are whole. -/
theorem idx_facts : ∀ t : Fin cfg0.N,
    win0_5.index t (0 : Fin 3) = t.val / 4 ∧ win0_5.index t (1 : Fin 3) = t.val % 4 ∧ win0_5.index t (2 : Fin 3) = 0
    ∧ win0_6.index t (0 : Fin 3) = t.val / 4 ∧ win0_6.index t (1 : Fin 3) = t.val % 4 ∧ win0_6.index t (2 : Fin 3) = 0
    ∧ win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- What grid point t writes back through result window 5 is block t of x·W + bias of the arrays as the call finds them:
    the x block's row r is row (t / 4, 512·(t % 4) + r) of the array, the weight and bias blocks are the whole arrays. -/
theorem flushed5_eq (c : Dev nD) (t : Fin cfg0.N) :
    (dat0 V c).flushed 5 t = ((cfg0.win 5).blk t).view.read (Elt Ideal) (proj3 (V c main_arg0) (V c main_v1) (V c main_v4)) := by
  show (cfg0.win 5).cut (grid0.coords t) ((dat0 V c).after 5 t) = _
  rw [after0_5]
  refine funext fun (j : S1x512x1024.Idx) => ?_
  obtain ⟨r, e, rfl⟩ : ∃ (r : Fin 512) (e : Fin 1024), j = ix3 (0 : Fin 1) r e :=
    ⟨j 1, j 2, (eq_ix3 j).trans (congrArg (fun a : Fin 1 => ix3 a (j 1) (j 2)) (Fin.ext (Nat.lt_one_iff.mp (j 0).isLt)))⟩
  refine (Cert.KernelIdeal.Body.out0_5_apply (iblk0 V c 0 t) (iblk0 V c 1 t) (iblk0 V c 2 t) (iblk0 V c 3 t) (iblk0 V c 4 t) r e).trans ?_
  show Cert.Attn.proj _ _ _ e = proj3 (V c main_arg0) (V c main_v1) (V c main_v4) (((cfg0.win 5).blk t).view.emb (ix3 (0 : Fin 1) r e))
  unfold proj3
  obtain ⟨f50, f51, f52, -, -, -, f00, f01, f02, f10, f11, f20, f21, -, -, -, -⟩ := idx_facts t
  have hX : ∀ d : Fin 1024, iblk0 V c 0 t (ix3 (0 : Fin 1) r d)
      = V c main_arg0 (ix3 ((((cfg0.win 5).blk t).view.emb (ix3 (0 : Fin 1) r e)) 0) ((((cfg0.win 5).blk t).view.emb (ix3 (0 : Fin 1) r e)) 1) d) := by
    intro d
    unfold iblk0
    show V c main_arg0 (((cfg0.win 0).blk t).view.emb (ix3 (0 : Fin 1) r d)) = V c main_arg0 _
    refine congrArg _ (funext fun a => Fin.ext ?_)
    match a with
    | ⟨0, _⟩ => show win0_0.index t (0 : Fin 3) * 1 + 1 * 0 = win0_5.index t (0 : Fin 3) * 1 + 1 * 0; omega
    | ⟨1, _⟩ => show win0_0.index t (1 : Fin 3) * 512 + 1 * r.val = win0_5.index t (1 : Fin 3) * 512 + 1 * r.val; omega
    | ⟨2, _⟩ => show win0_0.index t (2 : Fin 3) * 1024 + 1 * d.val = d.val; omega
  have hW : ∀ (d e' : Fin 1024), iblk0 V c 1 t (ix2 d e') = V c main_v1 (ix2 d e') := by
    intro d e'
    unfold iblk0
    show V c main_v1 (((cfg0.win 1).blk t).view.emb (ix2 d e')) = V c main_v1 _
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * e'.val = e'.val; omega
  have hb : ∀ (e' : Fin 1024), iblk0 V c 2 t (ix2 (0 : Fin 1) e') = V c main_v4 (ix2 (0 : Fin 1) e') := by
    intro e'
    unfold iblk0
    show V c main_v4 (((cfg0.win 2).blk t).view.emb (ix2 (0 : Fin 1) e')) = V c main_v4 _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * e'.val = e'.val; omega
  have he : e = (((cfg0.win 5).blk t).view.emb (ix3 (0 : Fin 1) r e)) 2 :=
    Fin.ext (show e.val = win0_5.index t (2 : Fin 3) * 1024 + 1 * e.val by omega)
  rw [funext hX, (funext fun d => funext fun e' => hW d e' : (fun (d e' : Fin 1024) => iblk0 V c 1 t (ix2 d e')) = _), funext hb]
  exact congrArg (Cert.Attn.proj _ _ _) he

/-- An index of the array is in point t's block of result window 5 iff each coordinate is in the block's range. -/
theorem mem_blk5 (t : Fin cfg0.N) (i : S4x2048x1024.Idx) :
    i ∈ ((cfg0.win 5).blk t).view.set ↔ ∀ a : Fin 3, win0_5.index t a * S1x512x1024.size a ≤ (i a).val ∧ (i a).val < win0_5.index t a * S1x512x1024.size a + S1x512x1024.size a := by
  show i ∈ ((View.whole main_v8_0).slice (win0_5.rect t)).set ↔ _
  rw [View.set_slice_whole, Rect.mem_set_unit]
  exact Iff.rfl

/-- The sixteen blocks tile the array: row (b, s) is in the block of point 4·b + s / 512. -/
theorem cover5 (i : S4x2048x1024.Idx) :
    ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 1024 := (i 2).isLt
  have hN : cfg0.N = 16 := N_0
  refine ⟨⟨(i 0).val * 4 + (i 1).val / 512, by rw [hN]; omega⟩, flush0_5 _, ?_⟩
  rw [mem_blk5]
  obtain ⟨f50, f51, f52, -, -, -, f00, f01, f02, f10, f11, f20, f21, -, -, -, -⟩ := idx_facts ⟨(i 0).val * 4 + (i 1).val / 512, by rw [hN]; omega⟩
  intro a
  match a with
  | ⟨0, _⟩ => show win0_5.index _ (0 : Fin 3) * 1 ≤ (i 0).val ∧ (i 0).val < win0_5.index _ (0 : Fin 3) * 1 + 1; simp only [] at *; omega
  | ⟨1, _⟩ => show win0_5.index _ (1 : Fin 3) * 512 ≤ (i 1).val ∧ (i 1).val < win0_5.index _ (1 : Fin 3) * 512 + 512; simp only [] at *; omega
  | ⟨2, _⟩ => show win0_5.index _ (2 : Fin 3) * 1024 ≤ (i 2).val ∧ (i 2).val < win0_5.index _ (2 : Fin 3) * 1024 + 1024; simp only [] at *; omega

/-- So result array 5 ends holding x·W + bias. -/
theorem final5 (c : Dev nD) : (dat0 V c).arrAt 5 cfg0.N = proj3 (V c main_arg0) (V c main_v1) (V c main_v4) :=
  (dat0 V c).arrAt_eq_of_cover 5 (proj3 (V c main_arg0) (V c main_v1) (V c main_v4)) (fun t _ => flushed5_eq V c t) cover5

/-- What grid point t writes back through result window 6 is block t of x·W + bias of the arrays as the call finds them:
    the x block's row r is row (t / 4, 512·(t % 4) + r) of the array, the weight and bias blocks are the whole arrays. -/
theorem flushed6_eq (c : Dev nD) (t : Fin cfg0.N) :
    (dat0 V c).flushed 6 t = ((cfg0.win 6).blk t).view.read (Elt Ideal) (proj3 (V c main_arg0) (V c main_v2) (V c main_v5)) := by
  show (cfg0.win 6).cut (grid0.coords t) ((dat0 V c).after 6 t) = _
  rw [after0_6]
  refine funext fun (j : S1x512x1024.Idx) => ?_
  obtain ⟨r, e, rfl⟩ : ∃ (r : Fin 512) (e : Fin 1024), j = ix3 (0 : Fin 1) r e :=
    ⟨j 1, j 2, (eq_ix3 j).trans (congrArg (fun a : Fin 1 => ix3 a (j 1) (j 2)) (Fin.ext (Nat.lt_one_iff.mp (j 0).isLt)))⟩
  refine (Cert.KernelIdeal.Body.out0_6_apply (iblk0 V c 0 t) (iblk0 V c 1 t) (iblk0 V c 2 t) (iblk0 V c 3 t) (iblk0 V c 4 t) r e).trans ?_
  show Cert.Attn.proj _ _ _ e = proj3 (V c main_arg0) (V c main_v2) (V c main_v5) (((cfg0.win 6).blk t).view.emb (ix3 (0 : Fin 1) r e))
  unfold proj3
  obtain ⟨-, -, -, f60, f61, f62, f00, f01, f02, -, -, -, -, f30, f31, f40, f41⟩ := idx_facts t
  have hX : ∀ d : Fin 1024, iblk0 V c 0 t (ix3 (0 : Fin 1) r d)
      = V c main_arg0 (ix3 ((((cfg0.win 6).blk t).view.emb (ix3 (0 : Fin 1) r e)) 0) ((((cfg0.win 6).blk t).view.emb (ix3 (0 : Fin 1) r e)) 1) d) := by
    intro d
    unfold iblk0
    show V c main_arg0 (((cfg0.win 0).blk t).view.emb (ix3 (0 : Fin 1) r d)) = V c main_arg0 _
    refine congrArg _ (funext fun a => Fin.ext ?_)
    match a with
    | ⟨0, _⟩ => show win0_0.index t (0 : Fin 3) * 1 + 1 * 0 = win0_6.index t (0 : Fin 3) * 1 + 1 * 0; omega
    | ⟨1, _⟩ => show win0_0.index t (1 : Fin 3) * 512 + 1 * r.val = win0_6.index t (1 : Fin 3) * 512 + 1 * r.val; omega
    | ⟨2, _⟩ => show win0_0.index t (2 : Fin 3) * 1024 + 1 * d.val = d.val; omega
  have hW : ∀ (d e' : Fin 1024), iblk0 V c 3 t (ix2 d e') = V c main_v2 (ix2 d e') := by
    intro d e'
    unfold iblk0
    show V c main_v2 (((cfg0.win 3).blk t).view.emb (ix2 d e')) = V c main_v2 _
    refine congrArg _ (funext fun a => Fin.ext ?_)
    match a with
    | ⟨0, _⟩ => show win0_3.index t (0 : Fin 2) * 1024 + 1 * d.val = d.val; omega
    | ⟨1, _⟩ => show win0_3.index t (1 : Fin 2) * 1024 + 1 * e'.val = e'.val; omega
  have hb : ∀ (e' : Fin 1024), iblk0 V c 4 t (ix2 (0 : Fin 1) e') = V c main_v5 (ix2 (0 : Fin 1) e') := by
    intro e'
    unfold iblk0
    show V c main_v5 (((cfg0.win 4).blk t).view.emb (ix2 (0 : Fin 1) e')) = V c main_v5 _
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * e'.val = e'.val; omega
  have he : e = (((cfg0.win 6).blk t).view.emb (ix3 (0 : Fin 1) r e)) 2 :=
    Fin.ext (show e.val = win0_6.index t (2 : Fin 3) * 1024 + 1 * e.val by omega)
  rw [funext hX, (funext fun d => funext fun e' => hW d e' : (fun (d e' : Fin 1024) => iblk0 V c 3 t (ix2 d e')) = _), funext hb]
  exact congrArg (Cert.Attn.proj _ _ _) he

/-- An index of the array is in point t's block of result window 6 iff each coordinate is in the block's range. -/
theorem mem_blk6 (t : Fin cfg0.N) (i : S4x2048x1024.Idx) :
    i ∈ ((cfg0.win 6).blk t).view.set ↔ ∀ a : Fin 3, win0_6.index t a * S1x512x1024.size a ≤ (i a).val ∧ (i a).val < win0_6.index t a * S1x512x1024.size a + S1x512x1024.size a := by
  show i ∈ ((View.whole main_v8_1).slice (win0_6.rect t)).set ↔ _
  rw [View.set_slice_whole, Rect.mem_set_unit]
  exact Iff.rfl

/-- The sixteen blocks tile the array: row (b, s) is in the block of point 4·b + s / 512. -/
theorem cover6 (i : S4x2048x1024.Idx) :
    ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 1024 := (i 2).isLt
  have hN : cfg0.N = 16 := N_0
  refine ⟨⟨(i 0).val * 4 + (i 1).val / 512, by rw [hN]; omega⟩, flush0_6 _, ?_⟩
  rw [mem_blk6]
  obtain ⟨-, -, -, f60, f61, f62, f00, f01, f02, -, -, -, -, f30, f31, f40, f41⟩ := idx_facts ⟨(i 0).val * 4 + (i 1).val / 512, by rw [hN]; omega⟩
  intro a
  match a with
  | ⟨0, _⟩ => show win0_6.index _ (0 : Fin 3) * 1 ≤ (i 0).val ∧ (i 0).val < win0_6.index _ (0 : Fin 3) * 1 + 1; simp only [] at *; omega
  | ⟨1, _⟩ => show win0_6.index _ (1 : Fin 3) * 512 ≤ (i 1).val ∧ (i 1).val < win0_6.index _ (1 : Fin 3) * 512 + 512; simp only [] at *; omega
  | ⟨2, _⟩ => show win0_6.index _ (2 : Fin 3) * 1024 ≤ (i 2).val ∧ (i 2).val < win0_6.index _ (2 : Fin 3) * 1024 + 1024; simp only [] at *; omega

/-- So result array 6 ends holding x·W + bias. -/
theorem final6 (c : Dev nD) : (dat0 V c).arrAt 6 cfg0.N = proj3 (V c main_arg0) (V c main_v2) (V c main_v5) :=
  (dat0 V c).arrAt_eq_of_cover 6 (proj3 (V c main_arg0) (V c main_v2) (V c main_v5)) (fun t _ => flushed6_eq V c t) cover6

end Cert.KernelIdeal.KvValue

end
-- ==== Proof.LibGramDot.lean ====
/-
  A matrix product with the RIGHT factor transposed, read at an entry. For the dimension numbers of `M×K` by `N×K`
  contracting the two last axes (`DotDims.transposedRhs M K N`: what `A · Bᵀ` prints as when the matrix unit consumes the
  transposed operand natively), the sum over the one-axis contraction index of any function of the two operand indices is the
  sum over `k : Fin K` of that function at `(p, k)` and `(c, k)` (`sum_transposedRhs`). Hence, on the extended reals, a
  `tpu.matmul` into the zero accumulator read at `(p, c)` is `∑ k, A (p, k) * B (c, k)` (`matmul_transposedRhs_zero_apply`),
  for every `M`, `K`, `N`; with `B = A` it is the Gram matrix of the rows of `A`.
-/
import Idealize.ShloMosaic.PureOps.Ideal.Laws
import Idealize.ShloMosaic.Lib.ValueIdx

noncomputable section

open scoped BigOperators

namespace Cert.Lib.GramDot

open Idealize.ShloMosaic Idealize.ShloMosaic.ValueIdx

variable {M K N : Nat}

/-- The left operand's index at output `(p, c)` and contraction coordinate `k` is `(p, k)`. -/
theorem lhsIdx_transposedRhs (p : Fin M) (c : Fin N) (k : Fin K) :
    (DotDims.transposedRhs M K N).lhsIdx (ix2 p c) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl (ix2 p c) _).trans hk

/-- The right operand's index at output `(p, c)` and contraction coordinate `k` is `(c, k)`. -/
theorem rhsIdx_transposedRhs (p : Fin M) (c : Fin N) (k : Fin K) :
    (DotDims.transposedRhs M K N).rhsIdx (ix2 p c) ((contrEquiv1 (DotDims.transposedRhs M K N) K rfl rfl).symm k) = ix2 c k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl (ix2 p c) _).trans hk

/-- A sum over the contraction index, of any function of the two operand indices, is the sum over the shared axis. -/
theorem sum_transposedRhs {β : Type*} [AddCommMonoid β]
    (f : (⟨2, ![M, K]⟩ : Shape).Idx → (⟨2, ![N, K]⟩ : Shape).Idx → β) (p : Fin M) (c : Fin N) :
    ∑ q : (DotDims.transposedRhs M K N).contr.Idx,
        f ((DotDims.transposedRhs M K N).lhsIdx (ix2 p c) q) ((DotDims.transposedRhs M K N).rhsIdx (ix2 p c) q)
      = ∑ k : Fin K, f (ix2 p k) (ix2 c k) := by
  rw [← Equiv.sum_comp (contrEquiv1 (DotDims.transposedRhs M K N) K rfl rfl).symm]
  refine Finset.sum_congr rfl fun k _ => ?_
  rw [lhsIdx_transposedRhs, rhsIdx_transposedRhs]

/-- On the extended reals a `tpu.matmul` of `A : M×K` and `B : N×K` contracting the last axes, into the zero accumulator,
    read at `(p, c)`, is `∑ k, A (p, k) * B (c, k)`. -/
theorem matmul_transposedRhs_zero_apply {φ₁ φ₂ : FTy} (prec : Option ContractPrecision)
    (A : FVec Ideal ⟨2, ![M, K]⟩ φ₁) (B : FVec Ideal ⟨2, ![N, K]⟩ φ₂) (p : Fin M) (c : Fin N) :
    FloatOps.matmul (DotDims.transposedRhs M K N) prec A B (constant ⟨2, ![M, N]⟩ .f32 0x00000000#32) (ix2 p c)
      = ∑ k : Fin K, A (ix2 p k) * B (ix2 c k) :=
  (Ideal.matmul_constant_zero_apply (DotDims.transposedRhs M K N) prec A B (ix2 p c)).trans
    (sum_transposedRhs (fun i j => A i * B j) p c)

end Cert.Lib.GramDot

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.AttnBody.lean ====
/-
  The body of the fused attention + LayerNorm kernel, read at an entry. On a tile of 256 query rows against the whole
  batch's 2048 keys and values, the stored tile at (0, r, e) is the LayerNorm of the row h_r = x_r + attention(q_r),
  where q_r = x_r·Wq + bq, the scores are Σ_d (q_r(d)·(1/32))·K(k,d), the softmax weights exp(s_k − max s) are
  multiplied into V BEFORE the division by their sum. Each printed operation is read at an index given by
  coordinates: the pointwise ones by definition, the layout operations, the lane reductions and the three matrix
  products by one lemma each.
-/
import proofs.«142548_j72980084294339_2_alg».proof.Proof.Gen.KernelIdeal.Frame
import proofs.«142548_j72980084294339_2_alg».proof.Proof.Spec
import proofs.«142548_j72980084294339_2_alg».proof.Proof.LibPlainDot
import proofs.«142548_j72980084294339_2_alg».proof.Proof.LibGramDot
import proofs.«142548_j72980084294339_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx
open Cert.Lib.PlainDot Cert.Lib.GramDot Cert.Lib.Keepdims

/-! ## The three products' dimension numbers -/

/-- x·Wq: a plain 256×1024 by 1024×1024 product. -/
theorem dot_q_eq : dot_S256x1024_S1024x1024_S256x1024_1_0_0_1_n_n = DotDims.plain 256 1024 1024 := rfl
/-- Q·Kᵀ: 256×1024 by 2048×1024, contracting the two last axes. -/
theorem dot_s_eq : dot_S256x1024_S2048x1024_S256x2048_1_1_0_0_n_n = DotDims.transposedRhs 256 1024 2048 := rfl
/-- P·V: a plain 256×2048 by 2048×1024 product. -/
theorem dot_v_eq : dot_S256x2048_S2048x1024_S256x1024_1_0_0_1_n_n = DotDims.plain 256 2048 1024 := rfl

section
variable (x0 : Vec Ideal S1x256x1024 .f32) (x1 : Vec Ideal S1024x1024 .bf16) (x2 : Vec Ideal S1x1024 .f32)
  (x3 x4 : Vec Ideal S1x2048x1024 .bf16)

/-- Row r of the x tile. -/
abbrev xrow (r : Fin 256) : Fin 1024 → EReal := fun d => x0 (ix3 (0 : Fin 1) r d)
/-- The query row: x_r·Wq + bq. -/
abbrev qrow (r : Fin 256) : Fin 1024 → EReal :=
  Cert.Attn.proj (xrow x0 r) (fun d c => x1 (ix2 d c)) (fun c => x2 (ix2 (0 : Fin 1) c))
/-- The keys and the values as matrices. -/
abbrev Kmat : Fin 2048 → Fin 1024 → EReal := fun k d => x3 (ix3 (0 : Fin 1) k d)
abbrev Vmat : Fin 2048 → Fin 1024 → EReal := fun k d => x4 (ix3 (0 : Fin 1) k d)

/-- The scaled query tile (x·Wq + bq)·(1/32), as the body computes it. -/
def qS : FVec Ideal S256x1024 .bf16 :=
  truncf .bf16 (mulf (addf (matmul dot_S256x1024_S1024x1024_S256x1024_1_0_0_1_n_n none
      (truncf .bf16 (shapeCast S256x1024 x0 shapeCasts_S1x256x1024_S256x1024 : FVec Ideal S256x1024 .f32) bitsLt_bf16_f32)
      (shapeCast S1024x1024 x1 shapeCasts_S1024x1024_S1024x1024 : FVec Ideal S1024x1024 .bf16) (constant S256x1024 .f32 0x00000000#32))
    (broadcastTo S256x1024 (shapeCast S1x1024 x2 shapeCasts_S1x1024_S1x1024 : FVec Ideal S1x1024 .f32) broadcasts_S1x1024_S256x1024))
    (broadcast S256x1024 (Scalar.ofBits .f32 0x3D000000#32))) bitsLt_bf16_f32

/-- The scaled query tile at (r, c) is q_r(c)·(1/32). -/
theorem qS_apply (r : Fin 256) (c : Fin 1024) :
    qS x0 x1 x2 (ix2 r c) = qrow x0 x1 x2 r c * Cert.Attn.invScale := by
  unfold qS
  rw [truncf_apply, mulf_apply, broadcast_apply, addf_apply, broadcastTo_1b_ab_apply, dot_q_eq]
  refine congrArg₂ (· * ·) (congrArg₂ (· + ·) ?_ ?_) rfl
  · refine (matmul_plain_zero_apply none _ _ r c).trans ?_
    refine Finset.sum_congr rfl fun d _ => ?_
    rw [truncf_apply, shapeCast_1ab_ab_apply, shapeCast_self]
  · rw [shapeCast_self]

/-- The scores Q·Kᵀ of the tile. -/
def sc : FVec Ideal S256x2048 .f32 :=
  matmul dot_S256x1024_S2048x1024_S256x2048_1_1_0_0_n_n none (qS x0 x1 x2)
    (shapeCast S2048x1024 x3 shapeCasts_S1x2048x1024_S2048x1024 : FVec Ideal S2048x1024 .bf16) (constant S256x2048 .f32 0x00000000#32)

/-- The score at (r, k) is Σ_d (q_r(d)·(1/32))·K(k, d). -/
theorem sc_apply (r : Fin 256) (k : Fin 2048) :
    sc x0 x1 x2 x3 (ix2 r k) = Cert.Attn.scoreK (qrow x0 x1 x2 r) (Kmat x3) k := by
  unfold sc
  rw [dot_s_eq]
  refine (matmul_transposedRhs_zero_apply none _ _ r k).trans ?_
  refine Finset.sum_congr rfl fun d _ => ?_
  rw [qS_apply, shapeCast_1ab_ab_apply]

end

/-! ## Pointwise transcendental operations -/

theorem exp_apply {s : Shape} {φ : FTy} (a : FVec Ideal s φ) (i : s.Idx) : exp a i = Ideal.exp (a i) := rfl
theorem rsqrt_apply {s : Shape} {φ : FTy} (a : FVec Ideal s φ) (i : s.Idx) : rsqrt a i = Ideal.rsqrt (a i) := rfl

/-! ## The lane maximum -/

/-- The lane maximum of a 256×2048 tile from the word of −∞ is, at row r, that row's maximum folded from −∞. -/
theorem laneMax_apply (s : FVec Ideal S256x2048 .f32) (h : S256x2048.Reduces [1] S256) (hφ : FKind.Formats .f32)
    (hacc : (0xFF800000#32 : BitVec 32) = 0xFF800000#32) (r : Fin 256) :
    multiReduction .maximumf [1] S256 s 0xFF800000#32 h hφ hacc (ix1 r) = Cert.Attn.rowMax (fun k => s (ix2 r k)) := by
  refine (Ideal.multiReduction_maximumf_single s 0xFF800000#32 h hφ hacc (ix1 r)).trans ?_
  unfold Cert.Attn.rowMax Cert.Attn.negInf
  refine congrArg (fun f => (Finset.univ : Finset (Fin 2048)).fold max (Ideal.ofBits .f32 0xFF800000#32) f) ?_
  funext k
  exact congrArg s (lift_lastAxis h r k)

section
variable (x0 : Vec Ideal S1x256x1024 .f32) (x1 : Vec Ideal S1024x1024 .bf16) (x2 : Vec Ideal S1x1024 .f32)
  (x3 x4 : Vec Ideal S1x2048x1024 .bf16)

/-- The unnormalised softmax weights exp(s − max s) of the tile. -/
def ex : FVec Ideal S256x2048 .f32 :=
  exp (subf (sc x0 x1 x2 x3) (broadcastTo S256x2048 (shapeCast S256x1
    (multiReduction .maximumf [1] S256 (sc x0 x1 x2 x3) 0xFF800000#32 reduces_S256x2048_S256 (.inl rfl) rfl)
    shapeCasts_S256_S256x1) broadcasts_S256x1_S256x2048))

/-- Row r of the scores is the spec's score row. -/
theorem sc_row (r : Fin 256) :
    (fun k => sc x0 x1 x2 x3 (ix2 r k)) = Cert.Attn.scoreK (qrow x0 x1 x2 r) (Kmat x3) :=
  funext fun k => sc_apply x0 x1 x2 x3 r k

/-- The weight at (r, k) is exp(s_k − max s) for the scores s of row r. -/
theorem ex_apply (r : Fin 256) (k : Fin 2048) :
    ex x0 x1 x2 x3 (ix2 r k)
      = Ideal.exp (Cert.Attn.scoreK (qrow x0 x1 x2 r) (Kmat x3) k - Cert.Attn.rowMax (Cert.Attn.scoreK (qrow x0 x1 x2 r) (Kmat x3))) := by
  unfold ex
  rw [exp_apply, subf_apply, broadcastTo_a1_ab_apply, shapeCast_a_a1_apply, laneMax_apply, sc_row, sc_apply]

/-- The row h = x + attention of the tile, as the body computes it. -/
theorem pay2_eq : k1_pay2 (F := Ideal) x0 x1 x2 x3 x4
    = addf (shapeCast S256x1024 x0 shapeCasts_S1x256x1024_S256x1024 : FVec Ideal S256x1024 .f32)
        (divf (matmul dot_S256x2048_S2048x1024_S256x1024_1_0_0_1_n_n none (truncf .bf16 (ex x0 x1 x2 x3) bitsLt_bf16_f32)
            (shapeCast S2048x1024 x4 shapeCasts_S1x2048x1024_S2048x1024 : FVec Ideal S2048x1024 .bf16) (constant S256x1024 .f32 0x00000000#32))
          (broadcastTo S256x1024 (shapeCast S256x1
            (multiReduction .add [1] S256 (ex x0 x1 x2 x3) 0x00000000#32 reduces_S256x2048_S256 (.inl rfl) rfl)
            shapeCasts_S256_S256x1) broadcasts_S256x1_S256x1024)) := rfl

/-- h at (r, c) is x(0, r, c) plus the attention of the query row r at feature c. -/
theorem pay2_apply (r : Fin 256) (c : Fin 1024) :
    k1_pay2 (F := Ideal) x0 x1 x2 x3 x4 (ix2 r c)
      = x0 (ix3 (0 : Fin 1) r c) + Cert.Attn.attnK (qrow x0 x1 x2 r) (Kmat x3) (Vmat x4) c := by
  rw [pay2_eq, addf_apply, divf_apply, shapeCast_1ab_ab_apply, broadcastTo_a1_ab_apply, shapeCast_a_a1_apply,
    rowSum_apply, dot_v_eq]
  unfold Cert.Attn.attnK
  refine congrArg (x0 (ix3 (0 : Fin 1) r c) + ·) (congrArg₂ Ideal.div ?_ ?_)
  · refine (matmul_plain_zero_apply none _ _ r c).trans ?_
    refine Finset.sum_congr rfl fun k _ => ?_
    rw [truncf_apply, ex_apply, shapeCast_1ab_ab_apply]
  · exact Finset.sum_congr rfl fun k _ => ex_apply x0 x1 x2 x3 r k

/-- The mean column at row r is the mean of row r of h. -/
theorem pay3_apply (r : Fin 256) (u : Fin 1) :
    k1_pay3 (F := Ideal) x0 x1 x2 x3 x4 (ix2 r u)
      = Cert.Attn.rowMean (fun d => k1_pay2 (F := Ideal) x0 x1 x2 x3 x4 (ix2 r d)) := by
  unfold k1_pay3
  rw [divf_apply, broadcast_apply, shapeCast_a_a1_apply, rowSum_apply]
  rfl

/-- The squared deviation at (r, c). -/
theorem pay4_apply (r : Fin 256) (c : Fin 1024) :
    k1_pay4 (F := Ideal) x0 x1 x2 x3 x4 (ix2 r c)
      = (k1_pay2 (F := Ideal) x0 x1 x2 x3 x4 (ix2 r c) - k1_pay3 (F := Ideal) x0 x1 x2 x3 x4 (ix2 r (0 : Fin 1)))
        * (k1_pay2 (F := Ideal) x0 x1 x2 x3 x4 (ix2 r c) - k1_pay3 (F := Ideal) x0 x1 x2 x3 x4 (ix2 r (0 : Fin 1))) := by
  unfold k1_pay4
  rw [mulf_apply, subf_apply, broadcastTo_a1_ab_apply]

end

/-- The LayerNorm's last steps on any h, mean column, squared deviations and the two parameter rows, at (0, r, c). -/
theorem pay1_apply (v29 : FVec Ideal S256x1024 .f32) (v33 : FVec Ideal S256x1 .f32) (v36 : FVec Ideal S256x1024 .f32)
    (v48 v52 : Vec Ideal S1x1024 .f32) (r : Fin 256) (c : Fin 1024) :
    k1_pay1 (F := Ideal) v29 v33 v36 v48 v52 (ix3 (0 : Fin 1) r c)
      = (v29 (ix2 r c) - v33 (ix2 r (0 : Fin 1)))
          * Ideal.rsqrt (Ideal.div (∑ d : Fin 1024, v36 (ix2 r d)) Cert.Attn.dModel + Cert.Attn.eps)
          * v48 (ix2 (0 : Fin 1) c) + v52 (ix2 (0 : Fin 1) c) := by
  unfold k1_pay1
  rw [shapeCast_ab_1ab_apply, addf_apply, mulf_apply, mulf_apply, subf_apply, broadcastTo_a1_ab_apply, broadcastTo_a1_ab_apply,
    rsqrt_apply, addf_apply, divf_apply, broadcast_apply, broadcast_apply, shapeCast_a_a1_apply, rowSum_apply]
  refine congrArg₂ (· + ·) (congrArg₂ (· * ·) rfl ?_) ?_
  · rw [broadcastTo_1b_ab_apply, shapeCast_self]
  · rw [broadcastTo_1b_ab_apply, shapeCast_self]

/-! ## The stored tile -/

theorem hz2 : (![0, 0] : Fin 2 → Nat) = fun _ => 0 := funext fun a => by fin_cases a <;> rfl
theorem hz3 : (![0, 0, 0] : Fin 3 → Nat) = fun _ => 0 := funext fun a => by fin_cases a <;> rfl

open Cert.KernelIdeal Idealize.ShloMosaic Idealize.ShloMosaic.ValueIdx in
/-- The tile the body leaves in the output window's buffer, at (0, r, e): the LayerNorm, with the two parameter
    rows, of the row x_r + attention(x_r·Wq + bq; K, V), the softmax normalised after the value product. -/
theorem out1_7_apply (x0 : Vec Ideal S1x256x1024 .f32) (x1 : Vec Ideal S1024x1024 .bf16) (x2 : Vec Ideal S1x1024 .f32)
    (x3 x4 : Vec Ideal S1x2048x1024 .bf16) (x5 x6 : Vec Ideal S1x1024 .f32) (r : Fin 256) (e : Fin 1024) :
    Cert.KernelIdeal.Gen.out1_7 (F := Ideal) x0 x1 x2 x3 x4 x5 x6 (ix3 (0 : Fin 1) r e)
      = Cert.Attn.layerNorm
          (fun d => x0 (ix3 (0 : Fin 1) r d)
            + Cert.Attn.attnK (Cert.Attn.proj (fun d' => x0 (ix3 (0 : Fin 1) r d')) (fun d' c => x1 (ix2 d' c)) (fun c => x2 (ix2 (0 : Fin 1) c)))
                (fun k d' => x3 (ix3 (0 : Fin 1) k d')) (fun k d' => x4 (ix3 (0 : Fin 1) k d')) d)
          (fun c => x5 (ix2 (0 : Fin 1) c)) (fun c => x6 (ix2 (0 : Fin 1) c)) e := by
  unfold Gen.out1_7
  rw [View.canon_unit_zero hz3]
  simp only [View.ld_unit_zero (S := S1x256x1024) hz3, View.ld_unit_zero (S := S1024x1024) hz2,
    View.ld_unit_zero (S := S1x1024) hz2, View.ld_unit_zero (S := S1x2048x1024) hz3]
  have hH : (fun d => k1_pay2 (F := Ideal) x0 x1 x2 x3 x4 (ix2 r d))
      = fun d => x0 (ix3 (0 : Fin 1) r d) + Cert.Attn.attnK (qrow x0 x1 x2 r) (Kmat x3) (Vmat x4) d :=
    funext fun d => pay2_apply x0 x1 x2 x3 x4 r d
  rw [pay1_apply]
  simp only [pay4_apply, pay3_apply, hH, pay2_apply]
  rfl

end Cert.KernelIdeal.Body

end
-- ==== Proof.AttnValue.lean ====
/-
  The second pallas_call's result array as one whole-array function of the arrays the call finds: grid point
  (b, qi) writes back rows 256·qi … 256·qi + 255 of batch b of the attention layer (the query rows against all 2048 keys
  and values of batch b, the residual, and the LayerNorm), and the thirty-two blocks tile the array.
-/
import proofs.«142548_j72980084294339_2_alg».proof.Proof.Gen.KernelIdeal.Frame
import proofs.«142548_j72980084294339_2_alg».proof.Proof.Spec
import proofs.«142548_j72980084294339_2_alg».proof.Proof.AttnBody
import Idealize.ShloMosaic.Lib.Pipeline.Value
import Idealize.ShloMosaic.Lib.ValueIdx

set_option maxRecDepth 16384

noncomputable section

namespace Cert.KernelIdeal.AttnValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The attention layer as one array: entry (b, s, e) is the LayerNorm, at feature e, of row (b, s) of X plus the
    attention of that row's query projection against all the key and value rows of batch b. -/
def attn3 (X : S4x2048x1024.Idx → EReal) (Wq : S1024x1024.Idx → EReal) (bq : S1x1024.Idx → EReal) (K Vv : S4x2048x1024.Idx → EReal) (g be : S1x1024.Idx → EReal) : S4x2048x1024.Idx → EReal :=
  fun i => Cert.Attn.layerNorm
    (fun d => X (ix3 (i 0) (i 1) d) + Cert.Attn.attnK (Cert.Attn.proj (fun d' => X (ix3 (i 0) (i 1) d')) (fun d' c => Wq (ix2 d' c)) (fun c => bq (ix2 (0 : Fin 1) c)))
        (fun k d' => K (ix3 (i 0) k d')) (fun k d' => Vv (ix3 (i 0) k d')) d)
    (fun c => g (ix2 (0 : Fin 1) c)) (fun c => be (ix2 (0 : Fin 1) c)) (i 2)

/-- The index maps over the thirty-two grid points: the x block and the result block are block (t / 8, t % 8, 0); the key
    and value blocks are block (t / 8, 0, 0); the weight and the four rows are whole. -/
theorem idx_facts : ∀ t : Fin cfg1.N,
    win1_7.index t (0 : Fin 3) = t.val / 8 ∧ win1_7.index t (1 : Fin 3) = t.val % 8 ∧ win1_7.index t (2 : Fin 3) = 0
    ∧ win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What grid point t writes back through result window 7 is block t of the attention layer of the arrays as the call
    finds them: the x block's row r is row (t / 8, 256·(t % 8) + r) of the array, the key and value blocks are batch t / 8
    of their arrays, and the weight and the four rows are the whole arrays. -/
theorem flushed7_eq (c : Dev nD) (t : Fin cfg1.N) :
    (dat1 V c).flushed 7 t = ((cfg1.win 7).blk t).view.read (Elt Ideal)
      (attn3 (V c main_arg0) (V c main_v0) (V c main_v3) (V c main_v8_0) (V c main_v8_1) (V c main_v6) (V c main_v7)) := by
  show (cfg1.win 7).cut (grid1.coords t) ((dat1 V c).after 7 t) = _
  rw [after1_7]
  refine funext fun (j : S1x256x1024.Idx) => ?_
  obtain ⟨r, e, rfl⟩ : ∃ (r : Fin 256) (e : Fin 1024), j = ix3 (0 : Fin 1) r e :=
    ⟨j 1, j 2, (eq_ix3 j).trans (congrArg (fun a : Fin 1 => ix3 a (j 1) (j 2)) (Fin.ext (Nat.lt_one_iff.mp (j 0).isLt)))⟩
  refine (Cert.KernelIdeal.Body.out1_7_apply (iblk1 V c 0 t) (iblk1 V c 1 t) (iblk1 V c 2 t) (iblk1 V c 3 t) (iblk1 V c 4 t) (iblk1 V c 5 t) (iblk1 V c 6 t) r e).trans ?_
  show Cert.Attn.layerNorm _ _ _ e = attn3 (V c main_arg0) (V c main_v0) (V c main_v3) (V c main_v8_0) (V c main_v8_1) (V c main_v6) (V c main_v7) (((cfg1.win 7).blk t).view.emb (ix3 (0 : Fin 1) r e))
  unfold attn3
  obtain ⟨f70, f71, f72, f00, f01, f02, f10, f11, f20, f21, f30, f31, f32, f40, f41, f42, f50, f51, f60, f61⟩ := idx_facts t
  have hX : ∀ d : Fin 1024, iblk1 V c 0 t (ix3 (0 : Fin 1) r d)
      = V c main_arg0 (ix3 ((((cfg1.win 7).blk t).view.emb (ix3 (0 : Fin 1) r e)) 0) ((((cfg1.win 7).blk t).view.emb (ix3 (0 : Fin 1) r e)) 1) d) := by
    intro d
    unfold iblk1
    show V c main_arg0 (((cfg1.win 0).blk t).view.emb (ix3 (0 : Fin 1) r d)) = V c main_arg0 _
    refine congrArg _ (funext fun a => Fin.ext ?_)
    match a with
    | ⟨0, _⟩ => show win1_0.index t (0 : Fin 3) * 1 + 1 * 0 = win1_7.index t (0 : Fin 3) * 1 + 1 * 0; omega
    | ⟨1, _⟩ => show win1_0.index t (1 : Fin 3) * 256 + 1 * r.val = win1_7.index t (1 : Fin 3) * 256 + 1 * r.val; omega
    | ⟨2, _⟩ => show win1_0.index t (2 : Fin 3) * 1024 + 1 * d.val = d.val; omega
  have hW : ∀ (d e' : Fin 1024), iblk1 V c 1 t (ix2 d e') = V c main_v0 (ix2 d e') := by
    intro d e'
    unfold iblk1
    show V c main_v0 (((cfg1.win 1).blk t).view.emb (ix2 d e')) = V c main_v0 _
    refine congrArg _ (funext fun a => Fin.ext ?_)
    match a with
    | ⟨0, _⟩ => show win1_1.index t (0 : Fin 2) * 1024 + 1 * d.val = d.val; omega
    | ⟨1, _⟩ => show win1_1.index t (1 : Fin 2) * 1024 + 1 * e'.val = e'.val; omega
  have hbq : ∀ (e' : Fin 1024), iblk1 V c 2 t (ix2 (0 : Fin 1) e') = V c main_v3 (ix2 (0 : Fin 1) e') := by
    intro e'
    unfold iblk1
    show V c main_v3 (((cfg1.win 2).blk t).view.emb (ix2 (0 : Fin 1) e')) = V c main_v3 _
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * e'.val = e'.val; omega
  have hK : ∀ (k : Fin 2048) (d : Fin 1024), iblk1 V c 3 t (ix3 (0 : Fin 1) k d)
      = V c main_v8_0 (ix3 ((((cfg1.win 7).blk t).view.emb (ix3 (0 : Fin 1) r e)) 0) k d) := by
    intro k d
    unfold iblk1
    show V c main_v8_0 (((cfg1.win 3).blk t).view.emb (ix3 (0 : Fin 1) k d)) = V c main_v8_0 _
    refine congrArg _ (funext fun a => Fin.ext ?_)
    match a with
    | ⟨0, _⟩ => show win1_3.index t (0 : Fin 3) * 1 + 1 * 0 = win1_7.index t (0 : Fin 3) * 1 + 1 * 0; omega
    | ⟨1, _⟩ => show win1_3.index t (1 : Fin 3) * 2048 + 1 * k.val = k.val; omega
    | ⟨2, _⟩ => show win1_3.index t (2 : Fin 3) * 1024 + 1 * d.val = d.val; omega
  have hV : ∀ (k : Fin 2048) (d : Fin 1024), iblk1 V c 4 t (ix3 (0 : Fin 1) k d)
      = V c main_v8_1 (ix3 ((((cfg1.win 7).blk t).view.emb (ix3 (0 : Fin 1) r e)) 0) k d) := by
    intro k d
    unfold iblk1
    show V c main_v8_1 (((cfg1.win 4).blk t).view.emb (ix3 (0 : Fin 1) k d)) = V c main_v8_1 _
    refine congrArg _ (funext fun a => Fin.ext ?_)
    match a with
    | ⟨0, _⟩ => show win1_4.index t (0 : Fin 3) * 1 + 1 * 0 = win1_7.index t (0 : Fin 3) * 1 + 1 * 0; omega
    | ⟨1, _⟩ => show win1_4.index t (1 : Fin 3) * 2048 + 1 * k.val = k.val; omega
    | ⟨2, _⟩ => show win1_4.index t (2 : Fin 3) * 1024 + 1 * d.val = d.val; omega
  have hg : ∀ (e' : Fin 1024), iblk1 V c 5 t (ix2 (0 : Fin 1) e') = V c main_v6 (ix2 (0 : Fin 1) e') := by
    intro e'
    unfold iblk1
    show V c main_v6 (((cfg1.win 5).blk t).view.emb (ix2 (0 : Fin 1) e')) = V c main_v6 _
    refine congrArg _ (funext fun a => Fin.ext ?_)
    match a with
    | ⟨0, _⟩ => show win1_5.index t (0 : Fin 2) * 1 + 1 * 0 = 0; omega
    | ⟨1, _⟩ => show win1_5.index t (1 : Fin 2) * 1024 + 1 * e'.val = e'.val; omega
  have hbe : ∀ (e' : Fin 1024), iblk1 V c 6 t (ix2 (0 : Fin 1) e') = V c main_v7 (ix2 (0 : Fin 1) e') := by
    intro e'
    unfold iblk1
    show V c main_v7 (((cfg1.win 6).blk t).view.emb (ix2 (0 : Fin 1) e')) = V c main_v7 _
    refine congrArg _ (funext fun a => Fin.ext ?_)
    match a with
    | ⟨0, _⟩ => show win1_6.index t (0 : Fin 2) * 1 + 1 * 0 = 0; omega
    | ⟨1, _⟩ => show win1_6.index t (1 : Fin 2) * 1024 + 1 * e'.val = e'.val; omega
  have he : e = (((cfg1.win 7).blk t).view.emb (ix3 (0 : Fin 1) r e)) 2 :=
    Fin.ext (show e.val = win1_7.index t (2 : Fin 3) * 1024 + 1 * e.val by omega)
  simp only [hX, hW, hbq, hK, hV, hg, hbe]
  exact congrArg (Cert.Attn.layerNorm _ _ _) he

/-- An index of the array is in point t's block of result window 7 iff each coordinate is in the block's range. -/
theorem mem_blk7 (t : Fin cfg1.N) (i : S4x2048x1024.Idx) :
    i ∈ ((cfg1.win 7).blk t).view.set ↔ ∀ a : Fin 3, win1_7.index t a * S1x256x1024.size a ≤ (i a).val ∧ (i a).val < win1_7.index t a * S1x256x1024.size a + S1x256x1024.size a := by
  show i ∈ ((View.whole main_v9).slice (win1_7.rect t)).set ↔ _
  rw [View.set_slice_whole, Rect.mem_set_unit]
  exact Iff.rfl

/-- The thirty-two blocks tile the array: row (b, s) is in the block of point 8·b + s / 256. -/
theorem cover7 (i : S4x2048x1024.Idx) :
    ∃ t : Fin cfg1.N, (cfg1.win 7).flush t = true ∧ i ∈ ((cfg1.win 7).blk t).view.set := by
  have hi0 : (i 0).val < 4 := (i 0).isLt
  have hi1 : (i 1).val < 2048 := (i 1).isLt
  have hi2 : (i 2).val < 1024 := (i 2).isLt
  have hN : cfg1.N = 32 := N_1
  refine ⟨⟨(i 0).val * 8 + (i 1).val / 256, by rw [hN]; omega⟩, flush1_7 _, ?_⟩
  rw [mem_blk7]
  obtain ⟨f70, f71, f72, -, -, -, -, -, -, -, -, -, -, -, -, -, -, -, -, -⟩ := idx_facts ⟨(i 0).val * 8 + (i 1).val / 256, by rw [hN]; omega⟩
  intro a
  match a with
  | ⟨0, _⟩ => show win1_7.index _ (0 : Fin 3) * 1 ≤ (i 0).val ∧ (i 0).val < win1_7.index _ (0 : Fin 3) * 1 + 1; simp only [] at *; omega
  | ⟨1, _⟩ => show win1_7.index _ (1 : Fin 3) * 256 ≤ (i 1).val ∧ (i 1).val < win1_7.index _ (1 : Fin 3) * 256 + 256; simp only [] at *; omega
  | ⟨2, _⟩ => show win1_7.index _ (2 : Fin 3) * 1024 ≤ (i 2).val ∧ (i 2).val < win1_7.index _ (2 : Fin 3) * 1024 + 1024; simp only [] at *; omega

/-- So result array 7 ends holding the attention layer. -/
theorem final7 (c : Dev nD) : (dat1 V c).arrAt 7 cfg1.N = attn3 (V c main_arg0) (V c main_v0) (V c main_v3) (V c main_v8_0) (V c main_v8_1) (V c main_v6) (V c main_v7) :=
  (dat1 V c).arrAt_eq_of_cover 7 (attn3 (V c main_arg0) (V c main_v0) (V c main_v3) (V c main_v8_0) (V c main_v8_1) (V c main_v6) (V c main_v7)) (fun t _ => flushed7_eq V c t) cover7

end Cert.KernelIdeal.AttnValue

end
-- ==== Proof.HostReads.lean ====
/-
  What the arrays the two calls find hold, read back through the fold of the buffer contents at the boundaries of
  the run: the three weight matrices are the arguments narrowed (the identity on the extended reals), the five rows
  [1, 1024] are the arguments [1024] reshaped, the activations are as launched, and each call's outputs are what its
  pipeline's write-backs leave.
-/
import proofs.«142548_j72980084294339_2_alg».proof.Proof.Gen.KernelIdeal.Frame
import Idealize.ShloMosaic.Lib.StableHlo.Run
import Idealize.ShloMosaic.Lib.Pipeline.Value
import Idealize.ShloMosaic.Lib.ValueLayout
import Idealize.ShloMosaic.Lib.ValueIdx

set_option maxRecDepth 16384

noncomputable section

namespace Cert.KernelIdeal.HostReads

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- No host operation writes the activations: the first call finds them as launched. -/
theorem V1_arg0 (c : Dev nD) : V1 m ρ c main_arg0 = m ((c : Thread nD τ).loc main_arg0) :=
  calc V1 m ρ c main_arg0
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.reshape_writes, Finset.mem_singleton]
          repeat' apply And.intro
          all_goals exact StableHlo.devRef_ne_of_ne (by decide)))
    _ = m ((c : Thread nD τ).loc main_arg0) := rfl

/-- The weight matrix main_v0 is argument 1 narrowed, which on the extended reals changes nothing. -/
theorem V1_v0 (c : Dev nD) :
    (V1 m ρ c main_v0 : S1024x1024.Idx → EReal) = (m ((c : Thread nD τ).loc main_arg1) : S1024x1024.Idx → EReal) := by
  show StableHlo.after hostOps0 (W0 m ρ c) (Proc.devRef .tc main_v0) = _
  after_results
  rfl

/-- The weight matrix main_v1 is argument 3 narrowed, which on the extended reals changes nothing. -/
theorem V1_v1 (c : Dev nD) :
    (V1 m ρ c main_v1 : S1024x1024.Idx → EReal) = (m ((c : Thread nD τ).loc main_arg3) : S1024x1024.Idx → EReal) := by
  show StableHlo.after hostOps0 (W0 m ρ c) (Proc.devRef .tc main_v1) = _
  after_results
  rfl

/-- The weight matrix main_v2 is argument 5 narrowed, which on the extended reals changes nothing. -/
theorem V1_v2 (c : Dev nD) :
    (V1 m ρ c main_v2 : S1024x1024.Idx → EReal) = (m ((c : Thread nD τ).loc main_arg5) : S1024x1024.Idx → EReal) := by
  show StableHlo.after hostOps0 (W0 m ρ c) (Proc.devRef .tc main_v2) = _
  after_results
  rfl

/-- The bias row main_v3 is the reshape [1024]→[1,1024] of argument 2: at (0, e) it reads the argument at e. -/
theorem V1_v3 (c : Dev nD) (e : Fin 1024) :
    (V1 m ρ c main_v3 : S1x1024.Idx → EReal) (ix2 (0 : Fin 1) e) = (m ((c : Thread nD τ).loc main_arg2) : S1024.Idx → EReal) (ix1 e) := by
  have h : (V1 m ρ c main_v3 : S1x1024.Idx → EReal)
      = shapeCast S1x1024 (m ((c : Thread nD τ).loc main_arg2) : S1024.Idx → EReal) shapeCasts_S1024_S1x1024 := by
    show StableHlo.after hostOps0 (W0 m ρ c) (Proc.devRef .tc main_v3) = _
    after_results
    rfl
  exact (congrFun h _).trans (shapeCast_a_1a_apply _ _ (0 : Fin 1) e)

/-- The bias row main_v4 is the reshape [1024]→[1,1024] of argument 4: at (0, e) it reads the argument at e. -/
theorem V1_v4 (c : Dev nD) (e : Fin 1024) :
    (V1 m ρ c main_v4 : S1x1024.Idx → EReal) (ix2 (0 : Fin 1) e) = (m ((c : Thread nD τ).loc main_arg4) : S1024.Idx → EReal) (ix1 e) := by
  have h : (V1 m ρ c main_v4 : S1x1024.Idx → EReal)
      = shapeCast S1x1024 (m ((c : Thread nD τ).loc main_arg4) : S1024.Idx → EReal) shapeCasts_S1024_S1x1024 := by
    show StableHlo.after hostOps0 (W0 m ρ c) (Proc.devRef .tc main_v4) = _
    after_results
    rfl
  exact (congrFun h _).trans (shapeCast_a_1a_apply _ _ (0 : Fin 1) e)

/-- The bias row main_v5 is the reshape [1024]→[1,1024] of argument 6: at (0, e) it reads the argument at e. -/
theorem V1_v5 (c : Dev nD) (e : Fin 1024) :
    (V1 m ρ c main_v5 : S1x1024.Idx → EReal) (ix2 (0 : Fin 1) e) = (m ((c : Thread nD τ).loc main_arg6) : S1024.Idx → EReal) (ix1 e) := by
  have h : (V1 m ρ c main_v5 : S1x1024.Idx → EReal)
      = shapeCast S1x1024 (m ((c : Thread nD τ).loc main_arg6) : S1024.Idx → EReal) shapeCasts_S1024_S1x1024 := by
    show StableHlo.after hostOps0 (W0 m ρ c) (Proc.devRef .tc main_v5) = _
    after_results
    rfl
  exact (congrFun h _).trans (shapeCast_a_1a_apply _ _ (0 : Fin 1) e)

/-- The bias row main_v6 is the reshape [1024]→[1,1024] of argument 7: at (0, e) it reads the argument at e. -/
theorem V1_v6 (c : Dev nD) (e : Fin 1024) :
    (V1 m ρ c main_v6 : S1x1024.Idx → EReal) (ix2 (0 : Fin 1) e) = (m ((c : Thread nD τ).loc main_arg7) : S1024.Idx → EReal) (ix1 e) := by
  have h : (V1 m ρ c main_v6 : S1x1024.Idx → EReal)
      = shapeCast S1x1024 (m ((c : Thread nD τ).loc main_arg7) : S1024.Idx → EReal) shapeCasts_S1024_S1x1024 := by
    show StableHlo.after hostOps0 (W0 m ρ c) (Proc.devRef .tc main_v6) = _
    after_results
    rfl
  exact (congrFun h _).trans (shapeCast_a_1a_apply _ _ (0 : Fin 1) e)

/-- The bias row main_v7 is the reshape [1024]→[1,1024] of argument 8: at (0, e) it reads the argument at e. -/
theorem V1_v7 (c : Dev nD) (e : Fin 1024) :
    (V1 m ρ c main_v7 : S1x1024.Idx → EReal) (ix2 (0 : Fin 1) e) = (m ((c : Thread nD τ).loc main_arg8) : S1024.Idx → EReal) (ix1 e) := by
  have h : (V1 m ρ c main_v7 : S1x1024.Idx → EReal)
      = shapeCast S1x1024 (m ((c : Thread nD τ).loc main_arg8) : S1024.Idx → EReal) shapeCasts_S1024_S1x1024 := by
    show StableHlo.after hostOps0 (W0 m ρ c) (Proc.devRef .tc main_v7) = _
    after_results
    rfl
  exact (congrFun h _).trans (shapeCast_a_1a_apply _ _ (0 : Fin 1) e)

/-- The activations are an input window's array of the first call, which leaves them as it found them. -/
theorem V2_arg0 (c : Dev nD) : V2 m ρ c main_arg0 = m ((c : Thread nD τ).loc main_arg0) :=
  ((W2_arr m ρ c 0).trans (((dat0 (V1 m ρ) c).arrAt_in 0 rfl _).trans (A_eq0 (V1 m ρ) c 0))).trans (V1_arg0 m ρ c)

/-- main_v0 is none of the first call's arrays: it holds after the call what it held before. -/
theorem V2_v0 (c : Dev nD) : V2 m ρ c main_v0 = V1 m ρ c main_v0 := W2_of_ne m ρ c main_v0 (by decide)

/-- main_v3 is none of the first call's arrays: it holds after the call what it held before. -/
theorem V2_v3 (c : Dev nD) : V2 m ρ c main_v3 = V1 m ρ c main_v3 := W2_of_ne m ρ c main_v3 (by decide)

/-- main_v6 is none of the first call's arrays: it holds after the call what it held before. -/
theorem V2_v6 (c : Dev nD) : V2 m ρ c main_v6 = V1 m ρ c main_v6 := W2_of_ne m ρ c main_v6 (by decide)

/-- main_v7 is none of the first call's arrays: it holds after the call what it held before. -/
theorem V2_v7 (c : Dev nD) : V2 m ρ c main_v7 = V1 m ρ c main_v7 := W2_of_ne m ρ c main_v7 (by decide)

/-- The first call's first output array holds what its pipeline's write-backs leave. -/
theorem V2_v8_0 (c : Dev nD) : V2 m ρ c main_v8_0 = (dat0 (V1 m ρ) c).arrAt 5 cfg0.N := W2_arr m ρ c 5

/-- The first call's second output array holds what its pipeline's write-backs leave. -/
theorem V2_v8_1 (c : Dev nD) : V2 m ρ c main_v8_1 = (dat0 (V1 m ρ) c).arrAt 6 cfg0.N := W2_arr m ρ c 6

/-- The result array holds what the second call's pipeline's write-backs leave. -/
theorem W3_v9 (c : Dev nD) : W3 m ρ c (Proc.devRef .tc main_v9) = (dat1 (V2 m ρ) c).arrAt 7 cfg1.N := W3_arr m ρ c 7

end Cert.KernelIdeal.HostReads

end
-- ==== Proof.KernelValue.lean ====
/-
  The kernel program's result array after the run is the attention layer of the nine argument arrays: the second
  pallas_call's write-backs leave the layer of what it finds (x, the query weights and bias, the key and value arrays the
  first call left, gamma and beta); the first call left x·Wk + bk and x·Wv + bv of what IT found; and the host
  operations before the calls only change the weights' format (the identity on the extended reals) and reshape the
  vectors to rows.
-/
import proofs.«142548_j72980084294339_2_alg».proof.Proof.KernelRun
import proofs.«142548_j72980084294339_2_alg».proof.Proof.KernelOut
import proofs.«142548_j72980084294339_2_alg».proof.Proof.KvValue
import proofs.«142548_j72980084294339_2_alg».proof.Proof.AttnValue
import proofs.«142548_j72980084294339_2_alg».proof.Proof.HostReads

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.ValueIdx
open Cert.KernelIdeal.HostReads Cert.KernelIdeal.KvValue Cert.KernelIdeal.AttnValue Cert.KernelIdeal.Out

variable (m : (ℓ : Loc nD τ sig) → Buf (Elt Ideal) ℓ) (ρ : Dev nD → PrngReg)

/-- The three arrays' definitions read at coordinates. -/
theorem attn3_apply (X : S4x2048x1024.Idx → EReal) (Wq : S1024x1024.Idx → EReal) (bq : S1x1024.Idx → EReal) (K Vv : S4x2048x1024.Idx → EReal)
    (g be : S1x1024.Idx → EReal) (b : Fin 4) (s : Fin 2048) (e : Fin 1024) :
    attn3 X Wq bq K Vv g be (ix3 b s e) = Cert.Attn.layerNorm
      (fun d => X (ix3 b s d) + Cert.Attn.attnK (Cert.Attn.proj (fun d' => X (ix3 b s d')) (fun d' c => Wq (ix2 d' c)) (fun c => bq (ix2 (0 : Fin 1) c)))
          (fun k d' => K (ix3 b k d')) (fun k d' => Vv (ix3 b k d')) d)
      (fun c => g (ix2 (0 : Fin 1) c)) (fun c => be (ix2 (0 : Fin 1) c)) e := rfl
theorem proj3_apply (X : S4x2048x1024.Idx → EReal) (W : S1024x1024.Idx → EReal) (bb : S1x1024.Idx → EReal) (b : Fin 4) (s : Fin 2048) (e : Fin 1024) :
    proj3 X W bb (ix3 b s e) = Cert.Attn.proj (fun d => X (ix3 b s d)) (fun d c => W (ix2 d c)) (fun c => bb (ix2 (0 : Fin 1) c)) e := rfl
theorem layer_apply (a0 : S4x2048x1024.Idx → EReal) (a1 : S1024x1024.Idx → EReal) (a2 : S1024.Idx → EReal) (a3 : S1024x1024.Idx → EReal)
    (a4 : S1024.Idx → EReal) (a5 : S1024x1024.Idx → EReal) (a6 a7 a8 : S1024.Idx → EReal) (b : Fin 4) (s : Fin 2048) (e : Fin 1024) :
    Out.layer a0 a1 a2 a3 a4 a5 a6 a7 a8 (ix3 b s e)
      = Cert.Attn.outK (Out.at3 a0) (Out.at2 a1) (Out.at1 a2) (Out.at2 a3) (Out.at1 a4) (Out.at2 a5) (Out.at1 a6) (Out.at1 a7) (Out.at1 a8) b s e := rfl

/-- The last boundary's contents at the result buffer: the layer of the launch memory's arguments. -/
theorem value (c : Dev nD) : W3 m ρ c (Proc.devRef .tc main_v9) = Out.result m c := by
  rw [W3_v9, final7 (V2 m ρ) c, V2_arg0, V2_v0, V2_v3, V2_v8_0, V2_v8_1, V2_v6, V2_v7,
    final5 (V1 m ρ) c, final6 (V1 m ρ) c, V1_arg0, V1_v0, V1_v1, V1_v2]
  funext i
  obtain ⟨b, s, e, rfl⟩ : ∃ (b : Fin 4) (s : Fin 2048) (e : Fin 1024), i = ix3 b s e := ⟨i 0, i 1, i 2, eq_ix3 i⟩
  unfold Out.result
  rw [attn3_apply, layer_apply]
  simp only [proj3_apply]
  have e3 : (fun c_1 : Fin 1024 => V1 m ρ c main_v3 (ix2 (0 : Fin 1) c_1)) = Out.at1 (m ((c.tc : Thread nD τ).loc main_arg2)) := funext fun e' => V1_v3 m ρ c e'
  have e4 : (fun c_1 : Fin 1024 => V1 m ρ c main_v4 (ix2 (0 : Fin 1) c_1)) = Out.at1 (m ((c.tc : Thread nD τ).loc main_arg4)) := funext fun e' => V1_v4 m ρ c e'
  have e5 : (fun c_1 : Fin 1024 => V1 m ρ c main_v5 (ix2 (0 : Fin 1) c_1)) = Out.at1 (m ((c.tc : Thread nD τ).loc main_arg6)) := funext fun e' => V1_v5 m ρ c e'
  have e6 : (fun c_1 : Fin 1024 => V1 m ρ c main_v6 (ix2 (0 : Fin 1) c_1)) = Out.at1 (m ((c.tc : Thread nD τ).loc main_arg7)) := funext fun e' => V1_v6 m ρ c e'
  have e7 : (fun c_1 : Fin 1024 => V1 m ρ c main_v7 (ix2 (0 : Fin 1) c_1)) = Out.at1 (m ((c.tc : Thread nD τ).loc main_arg8)) := funext fun e' => V1_v7 m ρ c e'
  rw [e3, e4, e5, e6, e7]
  rfl

/-- The run: every weakly fair execution of @main terminates without a fault with the result array at the layer
    of the arguments and the arguments as launched. -/
theorem run : θ_run defs (onTc (τ := τ) (main (F := Ideal))) ⟨m, fun _ => 0, ρ⟩ (fun r => ∀ c : Dev nD,
      r.2.mem ((c.tc : Thread nD τ).loc main_v9) = Out.result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (value m ρ c), (h c).2⟩) (Cert.KernelIdeal.RunOut.run_out m ρ)

end Cert.KernelIdeal.KernelValue

end
-- ==== Proof.AttnLaw.lean ====
/-
  The two arrangements of one attention row agree on finite real inputs: the scale 1/32 folded into the query is the
  division of the scores by sqrt(1024) = 32, the row maximum of a row of reals is a real, the softmax denominator is a
  positive real, and dividing the value product by it is the value product of the divided weights.
-/
import proofs.«142548_j72980084294339_2_alg».proof.Proof.Spec

noncomputable section

namespace Cert.Attn

open Idealize.ShloMosaic

/-! ### The constants -/

theorem invScale_eq : invScale = (((1 : ℝ) / 32 : ℝ) : EReal) := by
  unfold invScale
  simp [Ideal.ofBits, Ideal.ieee, -EReal.coe_mul]; norm_num

theorem dModel_eq : dModel = ((1024 : ℝ) : EReal) := by
  unfold dModel
  simp [Ideal.ofBits, Ideal.ieee, -EReal.coe_mul]; norm_num

theorem negInf_eq : negInf = ⊥ := by
  unfold negInf
  simp [Ideal.ofBits, Ideal.ieee]

theorem sqrt_dModel : Ideal.sqrt dModel = ((32 : ℝ) : EReal) := by
  rw [dModel_eq, Ideal.sqrt_coe, if_neg (by norm_num)]
  congr 1
  rw [show (1024 : ℝ) = 32 ^ 2 by norm_num]
  exact Real.sqrt_sq (by norm_num)

/-! ### Coercion of finite sums -/

/-- The coercion of a finite sum of reals is the sum of the coercions. -/
theorem coe_finsum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of coerced reals is the coercion of the real sum of products. -/
theorem sum_coe_mul {ι : Type*} (s : Finset ι) (f g : ι → ℝ) :
    ∑ i ∈ s, (f i : EReal) * (g i : EReal) = ((∑ i ∈ s, f i * g i : ℝ) : EReal) := by
  rw [coe_finsum]
  exact Finset.sum_congr rfl (fun i _ => (EReal.coe_mul _ _).symm)

/-! ### The projection of a real row is real -/

theorem proj_real {x : Fin 1024 → EReal} {W : Fin 1024 → Fin 1024 → EReal} {b : Fin 1024 → EReal}
    (hx : ∀ d, ∃ r : ℝ, x d = (r : EReal)) (hW : ∀ d e, ∃ r : ℝ, W d e = (r : EReal)) (hb : ∀ e, ∃ r : ℝ, b e = (r : EReal))
    (e : Fin 1024) : ∃ r : ℝ, proj x W b e = (r : EReal) := by
  choose x' hx' using hx
  choose W' hW' using hW
  choose b' hb' using hb
  refine ⟨(∑ d : Fin 1024, x' d * W' d e) + b' e, ?_⟩
  unfold proj
  rw [EReal.coe_add, ← sum_coe_mul, hb']
  congr 1
  exact Finset.sum_congr rfl (fun d _ => by rw [hx', hW'])

/-! ### The two score rows are one row of reals -/

theorem scoreK_real (q' : Fin 1024 → ℝ) (K' : Fin 2048 → Fin 1024 → ℝ) (k : Fin 2048) :
    scoreK (fun d => (q' d : EReal)) (fun k d => (K' k d : EReal)) k
      = (((∑ d : Fin 1024, q' d * K' k d) * (1 / 32) : ℝ) : EReal) := by
  unfold scoreK
  rw [invScale_eq, Finset.sum_mul, coe_finsum]
  refine Finset.sum_congr rfl (fun d _ => ?_)
  rw [← EReal.coe_mul, ← EReal.coe_mul]
  congr 1
  ring

theorem scoreR_real (q' : Fin 1024 → ℝ) (K' : Fin 2048 → Fin 1024 → ℝ) (k : Fin 2048) :
    scoreR (fun d => (q' d : EReal)) (fun k d => (K' k d : EReal)) k
      = (((∑ d : Fin 1024, q' d * K' k d) * (1 / 32) : ℝ) : EReal) := by
  unfold scoreR
  rw [sqrt_dModel, Ideal.div_coe (by norm_num), sum_coe_mul, ← EReal.coe_mul]

/-! ### The maximum of a nonempty finite row of reals is a real -/

theorem fold_max_real {ι : Type*} [Fintype ι] [Nonempty ι] (s' : ι → ℝ) :
    ∃ M : ℝ, (Finset.univ : Finset ι).fold max (⊥ : EReal) (fun k => (s' k : EReal)) = (M : EReal) := by
  have h1 : (Finset.univ : Finset ι).fold max (⊥ : EReal) (fun k => (s' k : EReal)) ≠ ⊥ := by
    obtain ⟨i⟩ := ‹Nonempty ι›
    have hle : ((s' i : ℝ) : EReal) ≤ (Finset.univ : Finset ι).fold max (⊥ : EReal) (fun k => (s' k : EReal)) :=
      (Finset.le_fold_max _).mpr (Or.inr ⟨i, Finset.mem_univ i, le_rfl⟩)
    intro h
    rw [h] at hle
    exact EReal.coe_ne_bot _ (le_bot_iff.mp hle)
  have h2 : (Finset.univ : Finset ι).fold max (⊥ : EReal) (fun k => (s' k : EReal)) ≠ ⊤ :=
    ne_of_lt ((Finset.fold_max_lt _).mpr ⟨bot_lt_top, fun x _ => EReal.coe_lt_top _⟩)
  exact ⟨_, (EReal.coe_toReal h2 h1).symm⟩

/-! ### Normalising after the value product is normalising before it -/

/-- For reals p_k, v_k and a nonzero real L: (Σ_k p_k v_k) / L = Σ_k (p_k / L) v_k. -/
theorem div_sum_eq_sum_div {ι : Type*} [Fintype ι] (p v : ι → ℝ) (L : ℝ) (hL : L ≠ 0) :
    Ideal.div (∑ k : ι, (p k : EReal) * (v k : EReal)) (L : EReal)
      = ∑ k : ι, Ideal.div (p k : EReal) (L : EReal) * (v k : EReal) := by
  rw [Ideal.div_coe hL, sum_coe_mul, ← EReal.coe_mul, Finset.sum_mul, coe_finsum]
  refine Finset.sum_congr rfl (fun k _ => ?_)
  rw [Ideal.div_coe hL, ← EReal.coe_mul, ← EReal.coe_mul]
  congr 1
  ring

/-- The law at a row of real scores and real values. -/
theorem attn_law (s' : Fin 2048 → ℝ) (v : Fin 2048 → ℝ) :
    Ideal.div (∑ k : Fin 2048, Ideal.exp ((s' k : EReal) - rowMax (fun k => (s' k : EReal))) * (v k : EReal))
        (∑ k : Fin 2048, Ideal.exp ((s' k : EReal) - rowMax (fun k => (s' k : EReal))))
      = ∑ k : Fin 2048, Ideal.div (Ideal.exp ((s' k : EReal) - max negInf (rowMax (fun k => (s' k : EReal)))))
          (∑ k' : Fin 2048, Ideal.exp ((s' k' : EReal) - max negInf (rowMax (fun k => (s' k : EReal))))) * (v k : EReal) := by
  rw [negInf_eq, max_eq_right bot_le]
  obtain ⟨M, hM⟩ : ∃ M : ℝ, rowMax (fun k => (s' k : EReal)) = (M : EReal) := by
    unfold rowMax; rw [negInf_eq]; exact fold_max_real s'
  rw [hM]
  have hexp : ∀ k : Fin 2048, Ideal.exp ((s' k : EReal) - (M : EReal)) = ((Real.exp (s' k - M) : ℝ) : EReal) := by
    intro k; rw [← EReal.coe_sub, Ideal.exp_coe]
  simp only [hexp]
  have hL : (∑ k : Fin 2048, Real.exp (s' k - M)) ≠ 0 :=
    ne_of_gt (Finset.sum_pos (fun k _ => Real.exp_pos _) Finset.univ_nonempty)
  rw [← coe_finsum]
  exact div_sum_eq_sum_div _ _ _ hL

/-! ### The attention rows agree -/

theorem attn_eq {q : Fin 1024 → EReal} {K V : Fin 2048 → Fin 1024 → EReal}
    (hq : ∀ d, ∃ r : ℝ, q d = (r : EReal)) (hK : ∀ k d, ∃ r : ℝ, K k d = (r : EReal)) (hV : ∀ k d, ∃ r : ℝ, V k d = (r : EReal))
    (e : Fin 1024) : attnK q K V e = attnR q K V e := by
  choose q' hq' using hq
  choose K' hK' using hK
  choose V' hV' using hV
  obtain rfl : q = fun d => (q' d : EReal) := funext hq'
  obtain rfl : K = fun k d => (K' k d : EReal) := funext (fun k => funext (hK' k))
  obtain rfl : V = fun k d => (V' k d : EReal) := funext (fun k => funext (hV' k))
  have hK : scoreK (fun d => (q' d : EReal)) (fun k d => (K' k d : EReal))
      = fun k => (((∑ d : Fin 1024, q' d * K' k d) * (1 / 32) : ℝ) : EReal) := funext (scoreK_real q' K')
  have hR : scoreR (fun d => (q' d : EReal)) (fun k d => (K' k d : EReal))
      = fun k => (((∑ d : Fin 1024, q' d * K' k d) * (1 / 32) : ℝ) : EReal) := funext (scoreR_real q' K')
  unfold attnK attnR
  rw [hK, hR]
  exact attn_law (fun k => (∑ d : Fin 1024, q' d * K' k d) * (1 / 32)) (fun k => V' k e)

/-! ### The whole layer -/

theorem outK_eq_outR (x : Fin 4 → Fin 2048 → Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (g be : Fin 1024 → EReal)
    (hx : ∀ b s d, ∃ r : ℝ, x b s d = (r : EReal)) (hWq : ∀ d e, ∃ r : ℝ, Wq d e = (r : EReal)) (hbq : ∀ e, ∃ r : ℝ, bq e = (r : EReal))
    (hWk : ∀ d e, ∃ r : ℝ, Wk d e = (r : EReal)) (hbk : ∀ e, ∃ r : ℝ, bk e = (r : EReal))
    (hWv : ∀ d e, ∃ r : ℝ, Wv d e = (r : EReal)) (hbv : ∀ e, ∃ r : ℝ, bv e = (r : EReal))
    (bi : Fin 4) (s : Fin 2048) (e : Fin 1024) :
    outK x Wq bq Wk bk Wv bv g be bi s e = outR x Wq bq Wk bk Wv bv g be bi s e := by
  unfold outK outR
  have h : (fun d => x bi s d + attnK (proj (x bi s) Wq bq) (fun k => proj (x bi k) Wk bk) (fun k => proj (x bi k) Wv bv) d)
      = (fun d => x bi s d + attnR (proj (x bi s) Wq bq) (fun k => proj (x bi k) Wk bk) (fun k => proj (x bi k) Wv bv) d) := by
    funext d
    rw [attn_eq (fun d => proj_real (hx bi s) hWq hbq d) (fun k d => proj_real (hx bi k) hWk hbk d)
      (fun k d => proj_real (hx bi k) hWv hbv d) d]
  rw [h]

end Cert.Attn

end
-- ==== Proof.RefValue.lean ====
/-
  The reference program read at one output element: stage by stage, each stage at coordinates, the whole value is
  Cert.Attn.outR of the arguments read at coordinates (single-head attention with the scores divided by sqrt(1024) and the
  softmax normalised before the value product, a residual, and a LayerNorm).
-/
import proofs.«142548_j72980084294339_2_alg».proof.Proof.Gen.ReferenceIdeal.Read
import proofs.«142548_j72980084294339_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-- The three argument types: the activations, a weight matrix, a vector of 1024 entries. -/
abbrev T3 : Type := (⟨S4x2048x1024, .f32⟩ : BufTy).Contents (Elt Ideal)
abbrev T2 : Type := (⟨S1024x1024, .f32⟩ : BufTy).Contents (Elt Ideal)
abbrev T1 : Type := (⟨S1024, .f32⟩ : BufTy).Contents (Elt Ideal)

/-- Two indices of rank 3 (2, 1) whose coordinates agree are equal. -/
local macro "idx3" : tactic =>
  `(tactic| (funext a; match a with | ⟨0, _⟩ => rfl | ⟨1, _⟩ => rfl | ⟨2, _⟩ => rfl))
local macro "idx2" : tactic =>
  `(tactic| (funext a; match a with | ⟨0, _⟩ => rfl | ⟨1, _⟩ => rfl))
local macro "idx1" : tactic =>
  `(tactic| (funext a; match a with | ⟨0, _⟩ => rfl))

/-! ## The index maps of the stages, at coordinates -/

section Indices
variable (b : Fin 4) (t q k : Fin 2048) (c d e : Fin 1024) (z : Fin 1)

theorem lidx1_at : lidx_main_v1 (ix3 b t c) d = ix3 b t d := by idx3
theorem ridx1_at : ridx_main_v1 (ix3 b t c) d = ix2 d c := by idx2
theorem bidx3_at : idx_main_v2 (idx_main_v3 (ix3 b t c)) = ix1 c := by idx1
theorem lidx5_at : lidx_main_v5 (ix3 b t c) d = ix3 b t d := by idx3
theorem ridx5_at : ridx_main_v5 (ix3 b t c) d = ix2 d c := by idx2
theorem bidx7_at : idx_main_v6 (idx_main_v7 (ix3 b t c)) = ix1 c := by idx1
theorem lidx9_at : lidx_main_v9 (ix3 b t c) d = ix3 b t d := by idx3
theorem ridx9_at : ridx_main_v9 (ix3 b t c) d = ix2 d c := by idx2
theorem bidx11_at : idx_main_v10 (idx_main_v11 (ix3 b t c)) = ix1 c := by idx1
theorem lidx13_at : lidx_main_v13 (ix3 b q k) d = ix3 b q d := by idx3
theorem ridx13_at : ridx_main_v13 (ix3 b q k) d = ix3 b k d := by idx3
theorem bidx20_at : idx_main_v19 (idx_main_v20 (ix3 b q k)) = ix2 b q := by idx2
theorem idx23_at : idx_main_v23 (ix2 b q) k = ix3 b q k := by idx3
theorem bidx25_at : idx_main_v24 (idx_main_v25 (ix3 b q k)) = ix2 b q := by idx2
theorem lidx27_at : lidx_main_v27 (ix3 b q e) k = ix3 b q k := by idx3
theorem ridx27_at : ridx_main_v27 (ix3 b q e) k = ix3 b k e := by idx3
theorem idx29_at : idx_main_v29 (ix2 b q) d = ix3 b q d := by idx3
theorem idx30_at : idx_main_v30 (ix3 b q z) = ix2 b q := by idx2
theorem idx33_at : idx_main_v33 (ix3 b q e) = ix3 b q (⟨0, Nat.one_pos⟩ : Fin 1) := by idx3
theorem idx36_at : idx_main_v36 (ix2 b q) d = ix3 b q d := by idx3
theorem idx37_at : idx_main_v37 (ix3 b q z) = ix2 b q := by idx2
theorem idx40_at : idx_main_v40 (ix3 b q e) = ix3 b q (⟨0, Nat.one_pos⟩ : Fin 1) := by idx3
theorem idx45_at : idx_main_v45 (ix3 b q e) = ix3 b q (⟨0, Nat.one_pos⟩ : Fin 1) := by idx3
theorem bidx48_at : idx_main_v47 (idx_main_v48 (ix3 b q e)) = ix1 e := by idx1
theorem bidx51_at : idx_main_v50 (idx_main_v51 (ix3 b q e)) = ix1 e := by idx1

end Indices

/-! ## The stages, at coordinates -/

section Stages
variable (x0 : T3) (x1 : T2) (x2 : T1) (x3 : T2) (x4 : T1) (x5 : T2) (x6 x7 x8 : T1)

/-- The query projection: x·Wq + bq. -/
theorem v4_at (b : Fin 4) (t : Fin 2048) (c : Fin 1024) :
    val_main_v4 (F := Ideal) x0 x1 x2 (ix3 b t c)
      = Cert.Attn.proj (fun d => x0 (ix3 b t d)) (fun d c => x1 (ix2 d c)) (fun c => x2 (ix1 c)) c := by
  rw [val_main_v4_apply, val_main_v1_apply, val_main_v3_apply, val_main_v2_apply]
  simp only [lidx1_at, ridx1_at, bidx3_at]
  rfl

/-- The key projection: x·Wk + bk. -/
theorem v8_at (b : Fin 4) (t : Fin 2048) (c : Fin 1024) :
    val_main_v8 (F := Ideal) x0 x3 x4 (ix3 b t c)
      = Cert.Attn.proj (fun d => x0 (ix3 b t d)) (fun d c => x3 (ix2 d c)) (fun c => x4 (ix1 c)) c := by
  rw [val_main_v8_apply, val_main_v5_apply, val_main_v7_apply, val_main_v6_apply]
  simp only [lidx5_at, ridx5_at, bidx7_at]
  rfl

/-- The value projection: x·Wv + bv. -/
theorem v12_at (b : Fin 4) (t : Fin 2048) (c : Fin 1024) :
    val_main_v12 (F := Ideal) x0 x5 x6 (ix3 b t c)
      = Cert.Attn.proj (fun d => x0 (ix3 b t d)) (fun d c => x5 (ix2 d c)) (fun c => x6 (ix1 c)) c := by
  rw [val_main_v12_apply, val_main_v9_apply, val_main_v11_apply, val_main_v10_apply]
  simp only [lidx9_at, ridx9_at, bidx11_at]
  rfl

/-- The scores: q·k / sqrt(1024). -/
theorem v15_at (b : Fin 4) (q k : Fin 2048) :
    val_main_v15 (F := Ideal) x0 x1 x2 x3 x4 (ix3 b q k)
      = Cert.Attn.scoreR (fun d => val_main_v4 (F := Ideal) x0 x1 x2 (ix3 b q d))
          (fun k d => val_main_v8 (F := Ideal) x0 x3 x4 (ix3 b k d)) k := by
  rw [val_main_v15_apply, val_main_v13_apply, val_main_v14_apply, val_main_v0_apply, val_main_cst_apply]
  simp only [lidx13_at, ridx13_at]
  rfl

/-- The row maximum of the scores, folded from -inf. -/
theorem v16_at (b : Fin 4) (q : Fin 2048) :
    val_main_v16 (F := Ideal) x0 x1 x2 x3 x4 (ix2 b q)
      = Cert.Attn.rowMax (fun k => val_main_v15 (F := Ideal) x0 x1 x2 x3 x4 (ix3 b q k)) := by
  unfold val_main_v16
  generalize val_main_v15 (F := Ideal) x0 x1 x2 x3 x4 = y
  have h : S4x2048x2048.Reduces [2] S4x2048 := by decide
  refine (Host.reduce_eq_fold_single (FloatOps.maximumf (F := Ideal) (φ := .f32)) y (val_main_cst_0 (F := Ideal))
    reducesTo_S4x2048x2048_S4x2048_d2 h h_S_ (ix2 b q)).trans ?_
  have hf : (y ∘ h.lift (ix2 b q)) = fun k : Fin 2048 => y (ix3 b q k) :=
    funext fun k => congrArg y (by idx3)
  exact congrArg (fun f => Finset.fold max (Ideal.ofBits .f32 0xFF800000#32) f (Finset.univ : Finset (Fin 2048))) hf

/-- The row maximum joined with -inf once more. -/
theorem v18_at (b : Fin 4) (q : Fin 2048) :
    val_main_v18 (F := Ideal) x0 x1 x2 x3 x4 (ix2 b q)
      = max Cert.Attn.negInf (Cert.Attn.rowMax (fun k => val_main_v15 (F := Ideal) x0 x1 x2 x3 x4 (ix3 b q k))) := by
  rw [val_main_v18_apply, val_main_v17_apply, val_main_cst_1_apply, v16_at]
  rfl

/-- The exponentials of the shifted scores. -/
theorem v22_at (b : Fin 4) (q k : Fin 2048) :
    val_main_v22 (F := Ideal) x0 x1 x2 x3 x4 (ix3 b q k)
      = Ideal.exp (val_main_v15 (F := Ideal) x0 x1 x2 x3 x4 (ix3 b q k) - val_main_v18 (F := Ideal) x0 x1 x2 x3 x4 (ix2 b q)) := by
  rw [val_main_v22_apply, val_main_v21_apply, val_main_v20_apply, val_main_v19_apply, bidx20_at]
  rfl

/-- Their row sum. -/
theorem v23_at (b : Fin 4) (q : Fin 2048) :
    val_main_v23 (F := Ideal) x0 x1 x2 x3 x4 (ix2 b q)
      = ∑ k : Fin 2048, val_main_v22 (F := Ideal) x0 x1 x2 x3 x4 (ix3 b q k) := by
  rw [val_main_v23_apply, val_main_cst_2_apply]
  simp only [idx23_at]
  rw [Ideal.ofBits_def, Ideal.ofBits_zero_f32, zero_add]

/-- The softmax weights. -/
theorem v26_at (b : Fin 4) (q k : Fin 2048) :
    val_main_v26 (F := Ideal) x0 x1 x2 x3 x4 (ix3 b q k)
      = Ideal.div (val_main_v22 (F := Ideal) x0 x1 x2 x3 x4 (ix3 b q k)) (val_main_v23 (F := Ideal) x0 x1 x2 x3 x4 (ix2 b q)) := by
  rw [val_main_v26_apply, val_main_v25_apply, val_main_v24_apply, bidx25_at]
  rfl

/-- The weights times the values. -/
theorem v27_at (b : Fin 4) (q : Fin 2048) (e : Fin 1024) :
    val_main_v27 (F := Ideal) x0 x1 x2 x3 x4 x5 x6 (ix3 b q e)
      = ∑ k : Fin 2048, val_main_v26 (F := Ideal) x0 x1 x2 x3 x4 (ix3 b q k) * val_main_v12 (F := Ideal) x0 x5 x6 (ix3 b k e) := by
  rw [val_main_v27_apply]
  simp only [lidx27_at, ridx27_at]

/-- The attention of one query row, in terms of the three projections. -/
theorem v27_attn (b : Fin 4) (q : Fin 2048) (e : Fin 1024) :
    val_main_v27 (F := Ideal) x0 x1 x2 x3 x4 x5 x6 (ix3 b q e)
      = Cert.Attn.attnR (fun d => val_main_v4 (F := Ideal) x0 x1 x2 (ix3 b q d))
          (fun k d => val_main_v8 (F := Ideal) x0 x3 x4 (ix3 b k d))
          (fun k d => val_main_v12 (F := Ideal) x0 x5 x6 (ix3 b k d)) e := by
  have hs : (fun k => val_main_v15 (F := Ideal) x0 x1 x2 x3 x4 (ix3 b q k))
      = Cert.Attn.scoreR (fun d => val_main_v4 (F := Ideal) x0 x1 x2 (ix3 b q d))
          (fun k d => val_main_v8 (F := Ideal) x0 x3 x4 (ix3 b k d)) := funext fun k => v15_at x0 x1 x2 x3 x4 b q k
  rw [v27_at]
  simp only [v26_at, v23_at, v22_at, v18_at, hs]
  simp only [v15_at]
  rfl

/-- The residual: x + attention. -/
theorem v28_at (b : Fin 4) (q : Fin 2048) (e : Fin 1024) :
    val_main_v28 (F := Ideal) x0 x1 x2 x3 x4 x5 x6 (ix3 b q e)
      = x0 (ix3 b q e) + val_main_v27 (F := Ideal) x0 x1 x2 x3 x4 x5 x6 (ix3 b q e) := by
  rw [val_main_v28_apply]
  rfl

/-- The mean of a row of the residual. -/
theorem v32_at (b : Fin 4) (q : Fin 2048) (z : Fin 1) :
    val_main_v32 (F := Ideal) x0 x1 x2 x3 x4 x5 x6 (ix3 b q z)
      = Cert.Attn.rowMean (fun d => val_main_v28 (F := Ideal) x0 x1 x2 x3 x4 x5 x6 (ix3 b q d)) := by
  rw [val_main_v32_apply, val_main_v30_apply, val_main_v29_apply, val_main_v31_apply, val_main_cst_4_apply,
    val_main_cst_3_apply, idx30_at]
  simp only [idx29_at]
  rw [Ideal.ofBits_def, Ideal.ofBits_zero_f32, zero_add]
  rfl

/-- The deviation from the mean (the operand of the square). -/
theorem v34_at (b : Fin 4) (q : Fin 2048) (e : Fin 1024) :
    val_main_v34 (F := Ideal) x0 x1 x2 x3 x4 x5 x6 (ix3 b q e)
      = val_main_v28 (F := Ideal) x0 x1 x2 x3 x4 x5 x6 (ix3 b q e)
        - Cert.Attn.rowMean (fun d => val_main_v28 (F := Ideal) x0 x1 x2 x3 x4 x5 x6 (ix3 b q d)) := by
  rw [val_main_v34_apply, val_main_v33_apply, idx33_at, v32_at]
  rfl

/-- The deviation from the mean (the operand of the scaling). -/
theorem v41_at (b : Fin 4) (q : Fin 2048) (e : Fin 1024) :
    val_main_v41 (F := Ideal) x0 x1 x2 x3 x4 x5 x6 (ix3 b q e)
      = val_main_v28 (F := Ideal) x0 x1 x2 x3 x4 x5 x6 (ix3 b q e)
        - Cert.Attn.rowMean (fun d => val_main_v28 (F := Ideal) x0 x1 x2 x3 x4 x5 x6 (ix3 b q d)) := by
  rw [val_main_v41_apply, val_main_v40_apply, idx40_at, v32_at]
  rfl

/-- The variance: the mean of the squared deviations. -/
theorem v39_at (b : Fin 4) (q : Fin 2048) (z : Fin 1) :
    val_main_v39 (F := Ideal) x0 x1 x2 x3 x4 x5 x6 (ix3 b q z)
      = Cert.Attn.rowMean (fun d => val_main_v34 (F := Ideal) x0 x1 x2 x3 x4 x5 x6 (ix3 b q d)
          * val_main_v34 (F := Ideal) x0 x1 x2 x3 x4 x5 x6 (ix3 b q d)) := by
  rw [val_main_v39_apply, val_main_v37_apply, val_main_v36_apply, val_main_v38_apply, val_main_cst_6_apply,
    val_main_cst_5_apply, idx37_at]
  simp only [idx36_at, val_main_v35_apply]
  rw [Ideal.ofBits_def, Ideal.ofBits_zero_f32, zero_add]
  rfl

/-- The reciprocal square root of the variance plus eps. -/
theorem v44_at (b : Fin 4) (q : Fin 2048) (z : Fin 1) :
    val_main_v44 (F := Ideal) x0 x1 x2 x3 x4 x5 x6 (ix3 b q z)
      = Ideal.rsqrt (val_main_v39 (F := Ideal) x0 x1 x2 x3 x4 x5 x6 (ix3 b q z) + Cert.Attn.eps) := by
  rw [val_main_v44_apply, val_main_v43_apply, val_main_v42_apply, val_main_cst_7_apply]
  rfl

/-- The normalised row, scaled and shifted. -/
theorem v52_at (b : Fin 4) (q : Fin 2048) (e : Fin 1024) :
    val_main_v52 (F := Ideal) x0 x1 x2 x3 x4 x5 x6 x7 x8 (ix3 b q e)
      = Cert.Attn.layerNorm (fun d => val_main_v28 (F := Ideal) x0 x1 x2 x3 x4 x5 x6 (ix3 b q d))
          (fun c => x7 (ix1 c)) (fun c => x8 (ix1 c)) e := by
  rw [val_main_v52_apply, val_main_v49_apply, val_main_v46_apply, val_main_v45_apply, val_main_v48_apply,
    val_main_v47_apply, val_main_v51_apply, val_main_v50_apply, idx45_at, bidx48_at, bidx51_at, v44_at, v39_at, v41_at]
  simp only [v34_at]
  rfl

end Stages

/-! ## The whole value -/

open Cert.ReferenceIdeal Idealize.ShloMosaic Idealize.ShloMosaic.ValueIdx in
theorem ref_apply (x0 : (⟨S4x2048x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1024, .f32⟩ : BufTy).Contents (Elt Ideal))
    (x4 : (⟨S1024, .f32⟩ : BufTy).Contents (Elt Ideal)) (x5 : (⟨S1024x1024, .f32⟩ : BufTy).Contents (Elt Ideal))
    (x6 x7 x8 : (⟨S1024, .f32⟩ : BufTy).Contents (Elt Ideal)) (bi : Fin 4) (s : Fin 2048) (e : Fin 1024) :
    Cert.ReferenceIdeal.Read.val_main_v52 (F := Ideal) x0 x1 x2 x3 x4 x5 x6 x7 x8 (ix3 bi s e)
      = Cert.Attn.outR (fun b t d => x0 (ix3 b t d)) (fun d c => x1 (ix2 d c)) (fun c => x2 (ix1 c))
          (fun d c => x3 (ix2 d c)) (fun c => x4 (ix1 c)) (fun d c => x5 (ix2 d c)) (fun c => x6 (ix1 c))
          (fun c => x7 (ix1 c)) (fun c => x8 (ix1 c)) bi s e := by
  have hq : (fun d => val_main_v4 (F := Ideal) x0 x1 x2 (ix3 bi s d))
      = Cert.Attn.proj (fun d => x0 (ix3 bi s d)) (fun d c => x1 (ix2 d c)) (fun c => x2 (ix1 c)) :=
    funext fun d => v4_at x0 x1 x2 bi s d
  have hk : (fun k d => val_main_v8 (F := Ideal) x0 x3 x4 (ix3 bi k d))
      = fun k => Cert.Attn.proj (fun d => x0 (ix3 bi k d)) (fun d c => x3 (ix2 d c)) (fun c => x4 (ix1 c)) :=
    funext fun k => funext fun d => v8_at x0 x3 x4 bi k d
  have hv : (fun k d => val_main_v12 (F := Ideal) x0 x5 x6 (ix3 bi k d))
      = fun k => Cert.Attn.proj (fun d => x0 (ix3 bi k d)) (fun d c => x5 (ix2 d c)) (fun c => x6 (ix1 c)) :=
    funext fun k => funext fun d => v12_at x0 x5 x6 bi k d
  have hh : (fun d => val_main_v28 (F := Ideal) x0 x1 x2 x3 x4 x5 x6 (ix3 bi s d))
      = fun d => x0 (ix3 bi s d) + Cert.Attn.attnR
          (Cert.Attn.proj (fun d => x0 (ix3 bi s d)) (fun d c => x1 (ix2 d c)) (fun c => x2 (ix1 c)))
          (fun k => Cert.Attn.proj (fun d => x0 (ix3 bi k d)) (fun d c => x3 (ix2 d c)) (fun c => x4 (ix1 c)))
          (fun k => Cert.Attn.proj (fun d => x0 (ix3 bi k d)) (fun d c => x5 (ix2 d c)) (fun c => x6 (ix1 c))) d :=
    funext fun d => by rw [v28_at, v27_attn, hq, hk, hv]
  rw [v52_at, hh]
  rfl

end Cert.ReferenceIdeal.RefValue

end
-- ==== Proof.FiniteInputs.lean ====
/-
  The finiteness precondition read back. The printed predicate is the conjunction, over the nine arguments, of
  "every entry's absolute value is below +∞" (the comparison against the pattern 0x7F800000, folded by "and" over all
  axes from 1). Where it holds, every entry of each of the first seven arguments is a real number: an extended real
  whose absolute value max x (−x) is below ⊤ is neither ⊥ nor ⊤.
-/
import proofs.«142548_j72980084294339_2_alg».proof.Pre_finite_inputs
import Idealize.ShloMosaic.Lib.ReduceAll
import Idealize.ShloMosaic.Lib.ValueIdx
import Idealize.ShloMosaic.PureOps.Ideal

noncomputable section

namespace Cert.Finite

open Idealize.ShloMosaic Idealize.ShloMosaic.ValueIdx

/-- A rank-zero array has one index. -/
instance subsingleton_scalar_idx : Subsingleton Cert.Pre_finite_inputs.S_.Idx := ⟨fun a b => funext fun d => d.elim0⟩

/-- The f32 pattern 0x7F800000 denotes +∞. -/
theorem inf_eq_top : Ideal.ofBits .f32 0x7F800000#32 = (⊤ : EReal) := by
  simp [Ideal.ofBits, Ideal.ieee]

/-- A one-bit word made from a truth value is 1 only when the value is true. -/
theorem ofBool_eq_one {b : Bool} (h : BitVec.ofBool b = 1#1) : b = true := by
  cases b
  · exact absurd h (by decide)
  · rfl

/-- An extended real whose absolute value is below ⊤ is a real number. -/
theorem real_of_abs_lt_top (x : EReal) (h : max x (-x) < ⊤) : ∃ r : ℝ, x = (r : EReal) := by
  induction x using EReal.rec with
  | bot =>
    rw [EReal.neg_bot, max_eq_right bot_le] at h
    exact absurd h (lt_irrefl _)
  | coe r => exact ⟨r, rfl⟩
  | top =>
    rw [max_eq_left le_top] at h
    exact absurd h (lt_irrefl _)

/-- One conjunct of the predicate: if the fold by "and", over all axes, of |a| < c is 1 and c is ⊤ everywhere,
    every entry of a is a real number. -/
theorem all_finite {s : Shape} {axes : List (Fin s.rank)} (a c : FVec Ideal s .f32) (hc : ∀ i, c i = (⊤ : EReal))
    (init : Cert.Pre_finite_inputs.S_.Idx → BitVec 1) (hr : s.ReducesTo axes Cert.Pre_finite_inputs.S_)
    (hu : 0 < Cert.Pre_finite_inputs.S_.numel) (j : Cert.Pre_finite_inputs.S_.Idx)
    (e : Host.reduce IntOp.andi (cmpf .olt (Host.absf a) c) init hr hu j = 1#1) (i : s.Idx) :
    ∃ r : ℝ, a i = (r : EReal) := by
  have hi : cmpf .olt (Host.absf a) c i = 1#1 := Host.reduce_andi_all _ init hr hu j e i
  have h1 : BitVec.ofBool (decide (max (a i) (-(a i)) < c i)) = 1#1 := hi
  have hlt : max (a i) (-(a i)) < c i := of_decide_eq_true (ofBool_eq_one h1)
  rw [hc i] at hlt
  exact real_of_abs_lt_top _ hlt

theorem reals_of_pre [Cert.Pre_finite_inputs.Facts]
    (a0 : FVec Ideal Cert.Pre_finite_inputs.S4x2048x1024 .f32) (a1 : FVec Ideal Cert.Pre_finite_inputs.S1024x1024 .f32) (a2 : FVec Ideal Cert.Pre_finite_inputs.S1024 .f32)
    (a3 : FVec Ideal Cert.Pre_finite_inputs.S1024x1024 .f32) (a4 : FVec Ideal Cert.Pre_finite_inputs.S1024 .f32) (a5 : FVec Ideal Cert.Pre_finite_inputs.S1024x1024 .f32)
    (a6 a7 a8 : FVec Ideal Cert.Pre_finite_inputs.S1024 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have e := congrFun h ix0
  dsimp only [Cert.Pre_finite_inputs.fn, Cert.Pre_finite_inputs.fn_part1, Cert.Pre_finite_inputs.fn_part2] at e
  simp only [andi, IntOp.andi_eq_one] at e
  obtain ⟨⟨⟨⟨⟨⟨⟨⟨h0, h1⟩, h2⟩, h3⟩, h4⟩, h5⟩, h6⟩, -⟩, -⟩ := e
  exact ⟨all_finite a0 _ (fun _ => inf_eq_top) _ _ _ _ h0, all_finite a1 _ (fun _ => inf_eq_top) _ _ _ _ h1,
    all_finite a2 _ (fun _ => inf_eq_top) _ _ _ _ h2, all_finite a3 _ (fun _ => inf_eq_top) _ _ _ _ h3,
    all_finite a4 _ (fun _ => inf_eq_top) _ _ _ _ h4, all_finite a5 _ (fun _ => inf_eq_top) _ _ _ _ h5,
    all_finite a6 _ (fun _ => inf_eq_top) _ _ _ _ h6⟩

end Cert.Finite

end
-- ==== Proof.Claims.lean ====
/-
  The value claim assembled. The reference program's run ends with its result array the stage val_main_v52 of its
  arguments, which at every element (b, s, e) is the textbook arrangement outR of the arguments read at coordinates; the
  kernel program's result array is the arrangement outK of the same arguments; and on arguments whose entries are
  finite reals (what the finiteness precondition gives for the activations, the three weight matrices and the three
  projection biases) the two arrangements are equal.
-/
import proofs.«142548_j72980084294339_2_alg».proof.Defs
import proofs.«142548_j72980084294339_2_alg».proof.Proof.Gen.KernelIdeal
import proofs.«142548_j72980084294339_2_alg».proof.Proof.Gen.ReferenceIdeal
import proofs.«142548_j72980084294339_2_alg».proof.Proof.Gen.Pre_finite_inputs
import proofs.«142548_j72980084294339_2_alg».proof.Proof.Gen.ReferenceIdeal.Run
import proofs.«142548_j72980084294339_2_alg».proof.Proof.Gen.ReferenceIdeal.Read
import proofs.«142548_j72980084294339_2_alg».proof.Proof.Spec
import proofs.«142548_j72980084294339_2_alg».proof.Proof.AttnLaw
import proofs.«142548_j72980084294339_2_alg».proof.Proof.KernelOut
import proofs.«142548_j72980084294339_2_alg».proof.Proof.RefValue
import proofs.«142548_j72980084294339_2_alg».proof.Proof.FiniteInputs

noncomputable section

namespace Cert.Proof.AttnClaims

open Idealize.ShloMosaic Idealize.ShloMosaic.TcCoe Idealize.SL.Sem Idealize.ShloMosaic.ValueIdx

/-- The kernel program's run with its result named: from any launch memory the run terminates without fault, the result
    array ends at the layer of the nine argument arrays, and the arguments end unchanged. -/
def KernelRunStatement [Cert.KernelIdeal.Facts] : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v9) = Cert.KernelIdeal.Out.result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

/-- The reference program runs and its argument arrays end unchanged. -/
theorem frame_ri : Cert.frame_ReferenceIdeal := fun m ρ _ =>
  (θ_run Cert.ReferenceIdeal.defs _ _).mono (fun _ h c => (h c).2) (Cert.ReferenceIdeal.Value.run (F := Ideal) m ρ)

/-- On nine argument arrays of which the finiteness predicate holds, the reference program's value is the layer: at
    every element the textbook arrangement, which on finite reals is the arrangement with the scale folded into the
    query and the softmax normalised after the value product. -/
theorem value_eq (x0 : (⟨Cert.ReferenceIdeal.S4x2048x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 x7 x8 : (⟨Cert.ReferenceIdeal.S1024, .f32⟩ : BufTy).Contents (Elt Ideal))
    (h : Cert.Pre_finite_inputs.fn (F := Ideal) x0 x1 x2 x3 x4 x5 x6 x7 x8 = (fun _ => 1#1)) :
    Cert.ReferenceIdeal.Read.val_main_v52 (F := Ideal) x0 x1 x2 x3 x4 x5 x6 x7 x8
      = Cert.KernelIdeal.Out.layer x0 x1 x2 x3 x4 x5 x6 x7 x8 := by
  obtain ⟨h0, h1, h2, h3, h4, h5, h6⟩ := Cert.Finite.reals_of_pre x0 x1 x2 x3 x4 x5 x6 x7 x8 h
  funext i
  refine (congrArg (Cert.ReferenceIdeal.Read.val_main_v52 (F := Ideal) x0 x1 x2 x3 x4 x5 x6 x7 x8) (eq_ix3 i)).trans ?_
  refine (Cert.ReferenceIdeal.RefValue.ref_apply x0 x1 x2 x3 x4 x5 x6 x7 x8 (i 0) (i 1) (i 2)).trans ?_
  exact (Cert.Attn.outK_eq_outR _ _ _ _ _ _ _ _ _ (fun b s d => h0 (ix3 b s d)) (fun d e => h1 (ix2 d e))
    (fun e => h2 (ix1 e)) (fun d e => h3 (ix2 d e)) (fun e => h4 (ix1 e)) (fun d e => h5 (ix2 d e))
    (fun e => h6 (ix1 e)) (i 0) (i 1) (i 2)).symm

/-- From memories agreeing on the arguments, of which the finiteness precondition holds, both programs run, end with
    equal result arrays and unchanged arguments — given the kernel program's run with its result named. -/
theorem algebraic_of_run (hrun : KernelRunStatement) : Cert.algebraic_KernelIdeal_ReferenceIdeal := by
  intro m ρ m' ρ' hpre hagree
  refine ⟨fun c => Cert.KernelIdeal.Out.result m c, hrun m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v52_eq, e0, e1, e2, e3, e4, e5, e6, e7, e8]
  exact value_eq _ _ _ _ _ _ _ _ _ (hpre c)

end Cert.Proof.AttnClaims

end
-- ==== Proof.lean ====
/-
  Single-head scaled-dot-product self-attention with a residual and a LayerNorm over f32[4, 2048, 1024], d = 1024: two
  Pallas kernels (the key and value projections K = x·Wk + bk, V = x·Wv + bv on tiles of 512 rows; then, per tile of
  256 query rows against a whole batch's 2048 keys, the query projection scaled by 1/32, the scores Q·Kᵀ, a one-shot softmax
  normalised AFTER the product with V, the residual and the LayerNorm) against jnp's textbook layer (scores divided by
  sqrt(1024), jax.nn.softmax, then the product with V).
  On the extended reals the two are one function of finite inputs. Changes of float format are the identity, and a
  matrix product on the matrix unit is the host's dot_general. What differs is where the scale and the softmax's
  normaliser sit: Σ_d (q_d · 1/32) · k_d = (Σ_d q_d · k_d) / sqrt(1024) because sqrt(1024) = 32 and every q_d, k_d is a real
  (a sum of products of finite inputs), so the scores, their row maximum (a real: the row is not empty) and the
  exponentials agree; and (Σ_k p_k · v_k) / L = Σ_k (p_k / L) · v_k for reals p_k, v_k and the normaliser L = Σ_k p_k, a
  positive real since each p_k = exp(s_k − max s) is positive. Both distributive steps need finiteness, which is the
  precondition. The residual and the LayerNorm are the same expression of the attention output on both sides.
  The frames of the two kernel programs are those of the imported frame modules; the reference's frame is its run with the
  result dropped; the idealized kernel is the kernel's own text read on the extended reals, so there is nothing to preserve.
-/
import proofs.«142548_j72980084294339_2_alg».proof.Defs
import proofs.«142548_j72980084294339_2_alg».proof.Proof.Gen.Kernel
import proofs.«142548_j72980084294339_2_alg».proof.Proof.Gen.Kernel.Skeleton
import proofs.«142548_j72980084294339_2_alg».proof.Proof.Gen.Kernel.Launch
import proofs.«142548_j72980084294339_2_alg».proof.Proof.Gen.Kernel.Points
import proofs.«142548_j72980084294339_2_alg».proof.Proof.Gen.Kernel.Frame
import proofs.«142548_j72980084294339_2_alg».proof.Proof.Gen.KernelIdeal
import proofs.«142548_j72980084294339_2_alg».proof.Proof.Gen.KernelIdeal.Skeleton
import proofs.«142548_j72980084294339_2_alg».proof.Proof.Gen.KernelIdeal.Launch
import proofs.«142548_j72980084294339_2_alg».proof.Proof.Gen.KernelIdeal.Points
import proofs.«142548_j72980084294339_2_alg».proof.Proof.Gen.KernelIdeal.Frame
import proofs.«142548_j72980084294339_2_alg».proof.Proof.Gen.ReferenceIdeal
import proofs.«142548_j72980084294339_2_alg».proof.Proof.Gen.Pre_finite_inputs
import proofs.«142548_j72980084294339_2_alg».proof.Proof.Gen.ReferenceIdeal.Run
import proofs.«142548_j72980084294339_2_alg».proof.Proof.Gen.ReferenceIdeal.Read
import proofs.«142548_j72980084294339_2_alg».proof.Proof.KernelValue
import proofs.«142548_j72980084294339_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Proof.AttnClaims.frame_ri,
  trivial,
  Cert.Proof.AttnClaims.algebraic_of_run (fun m ρ => Cert.KernelIdeal.KernelValue.run m ρ)⟩

end Cert.Proof

end
